-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v113)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v113) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v252) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S3 : Shape := ⟨1, ![3]⟩
abbrev S3x128x128 : Shape := ⟨3, ![3, 128, 128]⟩
abbrev S3x128 : Shape := ⟨2, ![3, 128]⟩
abbrev S2x128 : Shape := ⟨2, ![2, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3 : S_.BroadcastsInDim S3 (![] : Fin 0 → Fin S3.rank)
  reducesTo_S3_S_d0 : S3.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128 : S_.BroadcastsInDim S2x128 (![] : Fin 0 → Fin S2x128.rank)
  reducesTo_S2x128_S_d0_1 : S2x128.ReducesTo [0, 1] S_

variable [Facts]

def fn_part2 {F : FTy → Type} [FloatOps F] (main_arg8 : FVec F S3x128 .f32) (main_arg9 : FVec F S2x128 .f32) (main_arg10 : FVec F S2x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S2x128 .f32 := Host.absf main_arg9
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  main_v48

def fn_part1 {F : FTy → Type} [FloatOps F] (main_arg5 : FVec F S3x128x128 .f32) (main_arg6 : FVec F S3x128 .f32) (main_arg7 : FVec F S3x128 .f32) (main_arg8 : FVec F S3x128 .f32) (main_arg9 : FVec F S2x128 .f32) (main_arg10 : FVec F S2x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg5
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x640000 32) (main_arg2 : FVec F S3 .f32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) (main_arg9 : FVec F S2x128 .f32) (main_arg10 : FVec F S2x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3 .f32 := Host.absf main_arg2
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_c_1 : IVec S_ 1 := constantI S_ 1 1#1
  let main_v7 : IVec S_ 1 := (fun x v => Host.reduce IntOp.andi x v reducesTo_S3_S_d0 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x640000 : Shape := ⟨2, ![2, 640000]⟩
abbrev S3 : Shape := ⟨1, ![3]⟩
abbrev S3x128x128 : Shape := ⟨3, ![3, 128, 128]⟩
abbrev S3x128 : Shape := ⟨2, ![3, 128]⟩
abbrev S2x128 : Shape := ⟨2, ![2, 128]⟩
abbrev S1x640000 : Shape := ⟨2, ![1, 640000]⟩
abbrev S640000 : Shape := ⟨1, ![640000]⟩
abbrev S_ : Shape := ⟨0, ![]⟩
abbrev S1x128 : Shape := ⟨2, ![1, 128]⟩
abbrev S640000x1 : Shape := ⟨2, ![640000, 1]⟩
abbrev S640000x128 : Shape := ⟨2, ![640000, 128]⟩
abbrev S1 : Shape := ⟨1, ![1]⟩
abbrev S1x1 : Shape := ⟨2, ![1, 1]⟩
abbrev S1x128x128 : Shape := ⟨3, ![1, 128, 128]⟩
abbrev S128x128 : Shape := ⟨2, ![128, 128]⟩
abbrev S128 : Shape := ⟨1, ![128]⟩
abbrev S2000x128 : Shape := ⟨2, ![2000, 128]⟩
abbrev S2000 : Shape := ⟨1, ![2000]⟩
abbrev S2000x1 : Shape := ⟨2, ![2000, 1]⟩

abbrev nBuf : Space → Nat
  | .hbm => 136
  | .vmem => 45
  | .smem => 0
  | _ => 0

abbrev hbmTy0_0 (i : Nat) : BufTy := match i % 128 with
  | 0 => ⟨S50000x128, .f32⟩
  | 1 => ⟨S2x640000, .i32⟩
  | 2 => ⟨S3, .f32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S2x128, .f32⟩
  | 10 => ⟨S2x128, .f32⟩
  | 11 => ⟨S1x640000, .i32⟩
  | 12 => ⟨S640000, .i32⟩
  | 13 => ⟨S1x640000, .i32⟩
  | 14 => ⟨S640000, .i32⟩
  | 15 => ⟨S_, .f32⟩
  | 16 => ⟨S1x128, .f32⟩
  | 17 => ⟨S_, .f32⟩
  | 18 => ⟨S1x128, .f32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S640000x128, .f32⟩
  | 28 => ⟨S_, .f32⟩
  | 29 => ⟨S50000x128, .f32⟩
  | 30 => ⟨S640000x1, .i32⟩
  | 31 => ⟨S50000x128, .f32⟩
  | 32 => ⟨S1, .f32⟩
  | 33 => ⟨S_, .f32⟩
  | 34 => ⟨S1x1, .f32⟩
  | 35 => ⟨S1x128x128, .f32⟩
  | 36 => ⟨S128x128, .f32⟩
  | 37 => ⟨S128x128, .bf16⟩
  | 38 => ⟨S1x128, .f32⟩
  | 39 => ⟨S128, .f32⟩
  | 40 => ⟨S1x128, .f32⟩
  | 41 => ⟨S1x128x128, .f32⟩
  | 42 => ⟨S128x128, .f32⟩
  | 43 => ⟨S128x128, .bf16⟩
  | 44 => ⟨S1x128, .f32⟩
  | 45 => ⟨S128, .f32⟩
  | 46 => ⟨S1x128, .f32⟩
  | 47 => ⟨S1x128, .f32⟩
  | 48 => ⟨S128, .f32⟩
  | 49 => ⟨S1x128, .f32⟩
  | 50 => ⟨S1x128, .f32⟩
  | 51 => ⟨S128, .f32⟩
  | 52 => ⟨S1x128, .f32⟩
  | 53 => ⟨S1x128, .f32⟩
  | 54 => ⟨S128, .f32⟩
  | 55 => ⟨S1x128, .f32⟩
  | 56 => ⟨S1x128, .f32⟩
  | 57 => ⟨S128, .f32⟩
  | 58 => ⟨S1x128, .f32⟩
  | 59 => ⟨S50000x128, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x128, .f32⟩
  | 69 => ⟨S_, .f32⟩
  | 70 => ⟨S50000x128, .f32⟩
  | 71 => ⟨S640000x1, .i32⟩
  | 72 => ⟨S50000x128, .f32⟩
  | 73 => ⟨S1, .f32⟩
  | 74 => ⟨S_, .f32⟩
  | 75 => ⟨S1x1, .f32⟩
  | 76 => ⟨S1x128x128, .f32⟩
  | 77 => ⟨S128x128, .f32⟩
  | 78 => ⟨S128x128, .bf16⟩
  | 79 => ⟨S1x128, .f32⟩
  | 80 => ⟨S128, .f32⟩
  | 81 => ⟨S1x128, .f32⟩
  | 82 => ⟨S1x128x128, .f32⟩
  | 83 => ⟨S128x128, .f32⟩
  | 84 => ⟨S128x128, .bf16⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S1x128, .f32⟩
  | 92 => ⟨S128, .f32⟩
  | 93 => ⟨S1x128, .f32⟩
  | 94 => ⟨S1x128, .f32⟩
  | 95 => ⟨S128, .f32⟩
  | 96 => ⟨S1x128, .f32⟩
  | 97 => ⟨S1x128, .f32⟩
  | 98 => ⟨S128, .f32⟩
  | 99 => ⟨S1x128, .f32⟩
  | 100 => ⟨S50000x128, .f32⟩
  | 101 => ⟨S_, .i32⟩
  | 102 => ⟨S640000, .i32⟩
  | 103 => ⟨S640000, .i1⟩
  | 104 => ⟨S_, .i32⟩
  | 105 => ⟨S640000, .i32⟩
  | 106 => ⟨S640000, .i32⟩
  | 107 => ⟨S640000, .i32⟩
  | 108 => ⟨S640000x1, .i32⟩
  | 109 => ⟨S640000x128, .f32⟩
  | 110 => ⟨S_, .f32⟩
  | 111 => ⟨S50000x128, .f32⟩
  | 112 => ⟨S640000x1, .i32⟩
  | 113 => ⟨S50000x128, .f32⟩
  | 114 => ⟨S1, .f32⟩
  | 115 => ⟨S_, .f32⟩
  | 116 => ⟨S1x1, .f32⟩
  | 117 => ⟨S1x128x128, .f32⟩
  | 118 => ⟨S128x128, .f32⟩
  | 119 => ⟨S128x128, .bf16⟩
  | 120 => ⟨S1x128, .f32⟩
  | 121 => ⟨S128, .f32⟩
  | 122 => ⟨S1x128, .f32⟩
  | 123 => ⟨S1x128x128, .f32⟩
  | 124 => ⟨S128x128, .f32⟩
  | 125 => ⟨S128x128, .bf16⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S1x128, .f32⟩
  | 2 => ⟨S128, .f32⟩
  | 3 => ⟨S1x128, .f32⟩
  | 4 => ⟨S1x128, .f32⟩
  | 5 => ⟨S128, .f32⟩
  | 6 => ⟨S1x128, .f32⟩
  | 7 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S1x1, .f32⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1x1, .f32⟩
  | .local _ .vmem, ⟨20, _⟩ => ⟨S128x128, .bf16⟩
  | .local _ .vmem, ⟨21, _⟩ => ⟨S1x128, .f32⟩
  | .local _ .vmem, ⟨22, _⟩ => ⟨S128x128, .bf16⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S1x1, .f32⟩
  | .local _ .vmem, ⟨35, _⟩ => ⟨S128x128, .bf16⟩
  | .local _ .vmem, ⟨36, _⟩ => ⟨S1x128, .f32⟩
  | .local _ .vmem, ⟨37, _⟩ => ⟨S128x128, .bf16⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S2000x128, .f32⟩
  | .local _ .vmem, ⟨44, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_3 : Ref sig .tc := ⟨.hbm, 60, rfl⟩
abbrev main_v44 : Ref sig .tc := ⟨.hbm, 61, rfl⟩
abbrev main_v45 : Ref sig .tc := ⟨.hbm, 62, rfl⟩
abbrev main_c_4 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_c_6 : Ref sig .tc := ⟨.hbm, 101, rfl⟩
abbrev main_v82 : Ref sig .tc := ⟨.hbm, 102, rfl⟩
abbrev main_v83 : Ref sig .tc := ⟨.hbm, 103, rfl⟩
abbrev main_c_7 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_8 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg11_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg11_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem11_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem11_1 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S2000x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S1x128 : S_.BroadcastsInDim S1x128 (![] : Fin 0 → Fin S1x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S3_S1_0 : S3.Slices ![0] S1
  shapeCasts_S1_S_ : S1.ShapeCasts S_
  shapeCasts_S_S1x1 : S_.ShapeCasts S1x1
  slices_S3x128x128_S1x128x128_0_0_0 : S3x128x128.Slices ![0, 0, 0] S1x128x128
  shapeCasts_S1x128x128_S128x128 : S1x128x128.ShapeCasts S128x128
  bitsLt_bf16_f32 : FTy.bits .bf16 < FTy.bits .f32
  slices_S3x128_S1x128_0_0 : S3x128.Slices ![0, 0] S1x128
  shapeCasts_S1x128_S128 : S1x128.ShapeCasts S128
  shapeCasts_S128_S1x128 : S128.ShapeCasts S1x128
  slices_S2x128_S1x128_0_0 : S2x128.Slices ![0, 0] S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x128 : S1x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  slices_S3_S1_1 : S3.Slices ![1] S1
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x128.size a ≤ S50000x128.size a
  hwx0_11 : ∀ i : grid0.Coords, EltTy.bits .f32 = 32 ∨ (Rect.block (s := S50000x128) S2000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x128.size a ≤ S1x128.size a
  hwx1_10 : ∀ i : grid1.Coords, EltTy.bits .f32 = 32 ∨ (Rect.block (s := S1x128) S1x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x128.size a ≤ S50000x128.size a
  hwx1_11 : ∀ i : grid1.Coords, EltTy.bits .f32 = 32 ∨ (Rect.block (s := S50000x128) S2000x128.size (cc1_transform_11 i) (hinb1_11 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2000x128.size a ≤ S50000x128.size a
  hwx2_11 : ∀ i : grid2.Coords, EltTy.bits .f32 = 32 ∨ (Rect.block (s := S50000x128) S2000x128.size (cc2_transform_11 i) (hinb2_11 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v42) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v43) S2000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v68) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v71) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v74) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v77) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v80) S1x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v81) S2000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev win2_0 : Pipeline.Window sig grid2 :=
  Pipeline.Window.ofSpec (Memref.whole main_v81) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v91) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v94) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v97) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v100) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v103) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v106) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v109) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v112) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v4) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v5) S1x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v113) S2000x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S3 : Shape := ⟨1, ![3]⟩
abbrev S3x128x128 : Shape := ⟨3, ![3, 128, 128]⟩
abbrev S3x128 : Shape := ⟨2, ![3, 128]⟩
abbrev S2x128 : Shape := ⟨2, ![2, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000 : Shape := ⟨1, ![50000]⟩
abbrev S50000x1 : Shape := ⟨2, ![50000, 1]⟩

abbrev nBuf : Space → Nat
  | .hbm => 306
  | .vmem => 0
  | .smem => 0
  | _ => 0

abbrev hbmTy0_0 (i : Nat) : BufTy := match i % 128 with
  | 0 => ⟨S50000x128, .f32⟩
  | 1 => ⟨S2x640000, .i32⟩
  | 2 => ⟨S3, .f32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S2x128, .f32⟩
  | 10 => ⟨S2x128, .f32⟩
  | 11 => ⟨S1x640000, .i32⟩
  | 12 => ⟨S640000, .i32⟩
  | 13 => ⟨S1x640000, .i32⟩
  | 14 => ⟨S640000, .i32⟩
  | 15 => ⟨S_, .i32⟩
  | 16 => ⟨S640000, .i32⟩
  | 17 => ⟨S640000, .i1⟩
  | 18 => ⟨S_, .i32⟩
  | 19 => ⟨S640000, .i32⟩
  | 20 => ⟨S640000, .i32⟩
  | 21 => ⟨S640000, .i32⟩
  | 22 => ⟨S640000x1, .i32⟩
  | 23 => ⟨S640000x128, .f32⟩
  | 24 => ⟨S_, .f32⟩
  | 25 => ⟨S50000x128, .f32⟩
  | 26 => ⟨S640000x1, .i32⟩
  | 27 => ⟨S50000x128, .f32⟩
  | 28 => ⟨S1, .f32⟩
  | 29 => ⟨S_, .f32⟩
  | 30 => ⟨S_, .f32⟩
  | 31 => ⟨S_, .f32⟩
  | 32 => ⟨S50000x128, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S128, .f32⟩
  | 56 => ⟨S1x128, .f32⟩
  | 57 => ⟨S128, .f32⟩
  | 58 => ⟨S_, .f32⟩
  | 59 => ⟨S50000, .f32⟩
  | 60 => ⟨S50000x1, .f32⟩
  | 61 => ⟨S_, .f32⟩
  | 62 => ⟨S50000x1, .f32⟩
  | 63 => ⟨S50000x1, .f32⟩
  | 64 => ⟨S50000x128, .f32⟩
  | 65 => ⟨S50000x128, .f32⟩
  | 66 => ⟨S50000x128, .f32⟩
  | 67 => ⟨S_, .f32⟩
  | 68 => ⟨S50000, .f32⟩
  | 69 => ⟨S50000x1, .f32⟩
  | 70 => ⟨S_, .f32⟩
  | 71 => ⟨S50000x1, .f32⟩
  | 72 => ⟨S50000x1, .f32⟩
  | 73 => ⟨S50000x128, .f32⟩
  | 74 => ⟨S50000x128, .f32⟩
  | 75 => ⟨S_, .f32⟩
  | 76 => ⟨S50000x1, .f32⟩
  | 77 => ⟨S50000x1, .f32⟩
  | 78 => ⟨S50000x1, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S1x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S50000x128, .f32⟩
  | 100 => ⟨S_, .f32⟩
  | 101 => ⟨S50000, .f32⟩
  | 102 => ⟨S50000x1, .f32⟩
  | 103 => ⟨S_, .f32⟩
  | 104 => ⟨S50000x1, .f32⟩
  | 105 => ⟨S50000x1, .f32⟩
  | 106 => ⟨S50000x128, .f32⟩
  | 107 => ⟨S50000x128, .f32⟩
  | 108 => ⟨S_, .f32⟩
  | 109 => ⟨S50000x1, .f32⟩
  | 110 => ⟨S50000x1, .f32⟩
  | 111 => ⟨S50000x1, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S50000x128, .f32⟩
  | 124 => ⟨S_, .i32⟩
  | 125 => ⟨S640000, .i32⟩
  | 126 => ⟨S640000, .i1⟩
  | 127 => ⟨S_, .i32⟩
  | _ => ⟨S50000x128, .f32⟩

abbrev hbmTy0_1 (i : Nat) : BufTy := match i % 128 with
  | 0 => ⟨S640000, .i32⟩
  | 1 => ⟨S640000, .i32⟩
  | 2 => ⟨S640000, .i32⟩
  | 3 => ⟨S640000x1, .i32⟩
  | 4 => ⟨S640000x128, .f32⟩
  | 5 => ⟨S_, .f32⟩
  | 6 => ⟨S50000x128, .f32⟩
  | 7 => ⟨S640000x1, .i32⟩
  | 8 => ⟨S50000x128, .f32⟩
  | 9 => ⟨S1, .f32⟩
  | 10 => ⟨S_, .f32⟩
  | 11 => ⟨S_, .f32⟩
  | 12 => ⟨S_, .f32⟩
  | 13 => ⟨S50000x128, .f32⟩
  | 14 => ⟨S50000x128, .f32⟩
  | 15 => ⟨S50000x128, .f32⟩
  | 16 => ⟨S1x128x128, .f32⟩
  | 17 => ⟨S128x128, .f32⟩
  | 18 => ⟨S50000x128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S128, .f32⟩
  | 37 => ⟨S1x128, .f32⟩
  | 38 => ⟨S128, .f32⟩
  | 39 => ⟨S_, .f32⟩
  | 40 => ⟨S50000, .f32⟩
  | 41 => ⟨S50000x1, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S50000x128, .f32⟩
  | 48 => ⟨S_, .f32⟩
  | 49 => ⟨S50000, .f32⟩
  | 50 => ⟨S50000x1, .f32⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S_, .f32⟩
  | 57 => ⟨S50000x1, .f32⟩
  | 58 => ⟨S50000x1, .f32⟩
  | 59 => ⟨S50000x1, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S1x128, .f32⟩
  | 69 => ⟨S128, .f32⟩
  | 70 => ⟨S1x128, .f32⟩
  | 71 => ⟨S128, .f32⟩
  | 72 => ⟨S_, .f32⟩
  | 73 => ⟨S50000, .f32⟩
  | 74 => ⟨S50000x1, .f32⟩
  | 75 => ⟨S_, .f32⟩
  | 76 => ⟨S50000x1, .f32⟩
  | 77 => ⟨S50000x1, .f32⟩
  | 78 => ⟨S50000x128, .f32⟩
  | 79 => ⟨S50000x128, .f32⟩
  | 80 => ⟨S50000x128, .f32⟩
  | 81 => ⟨S_, .f32⟩
  | 82 => ⟨S50000, .f32⟩
  | 83 => ⟨S50000x1, .f32⟩
  | 84 => ⟨S_, .f32⟩
  | 85 => ⟨S50000x1, .f32⟩
  | 86 => ⟨S50000x1, .f32⟩
  | 87 => ⟨S50000x128, .f32⟩
  | 88 => ⟨S50000x128, .f32⟩
  | 89 => ⟨S_, .f32⟩
  | 90 => ⟨S50000x1, .f32⟩
  | 91 => ⟨S50000x1, .f32⟩
  | 92 => ⟨S50000x1, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S_, .i32⟩
  | 106 => ⟨S640000, .i32⟩
  | 107 => ⟨S640000, .i1⟩
  | 108 => ⟨S_, .i32⟩
  | 109 => ⟨S640000, .i32⟩
  | 110 => ⟨S640000, .i32⟩
  | 111 => ⟨S640000, .i32⟩
  | 112 => ⟨S640000x1, .i32⟩
  | 113 => ⟨S640000x128, .f32⟩
  | 114 => ⟨S_, .f32⟩
  | 115 => ⟨S50000x128, .f32⟩
  | 116 => ⟨S640000x1, .i32⟩
  | 117 => ⟨S50000x128, .f32⟩
  | 118 => ⟨S1, .f32⟩
  | 119 => ⟨S_, .f32⟩
  | 120 => ⟨S_, .f32⟩
  | 121 => ⟨S_, .f32⟩
  | 122 => ⟨S50000x128, .f32⟩
  | 123 => ⟨S50000x128, .f32⟩
  | 124 => ⟨S50000x128, .f32⟩
  | 125 => ⟨S1x128x128, .f32⟩
  | 126 => ⟨S128x128, .f32⟩
  | 127 => ⟨S50000x128, .f32⟩
  | _ => ⟨S50000x128, .f32⟩

abbrev hbmTy0_2 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S1x128x128, .f32⟩
  | 9 => ⟨S128x128, .f32⟩
  | 10 => ⟨S50000x128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S128, .f32⟩
  | 18 => ⟨S1x128, .f32⟩
  | 19 => ⟨S128, .f32⟩
  | 20 => ⟨S_, .f32⟩
  | 21 => ⟨S50000, .f32⟩
  | 22 => ⟨S50000x1, .f32⟩
  | 23 => ⟨S_, .f32⟩
  | 24 => ⟨S50000x1, .f32⟩
  | 25 => ⟨S50000x1, .f32⟩
  | 26 => ⟨S50000x128, .f32⟩
  | 27 => ⟨S50000x128, .f32⟩
  | 28 => ⟨S50000x128, .f32⟩
  | 29 => ⟨S_, .f32⟩
  | 30 => ⟨S50000, .f32⟩
  | 31 => ⟨S50000x1, .f32⟩
  | 32 => ⟨S_, .f32⟩
  | 33 => ⟨S50000x1, .f32⟩
  | 34 => ⟨S50000x1, .f32⟩
  | 35 => ⟨S50000x128, .f32⟩
  | 36 => ⟨S50000x128, .f32⟩
  | 37 => ⟨S_, .f32⟩
  | 38 => ⟨S50000x1, .f32⟩
  | 39 => ⟨S50000x1, .f32⟩
  | 40 => ⟨S50000x1, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_cst_4 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_5 : Ref sig .tc := ⟨.hbm, 67, rfl⟩
abbrev main_v49 : Ref sig .tc := ⟨.hbm, 68, rfl⟩
abbrev main_v50 : Ref sig .tc := ⟨.hbm, 69, rfl⟩
abbrev main_cst_6 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_8 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_10 : Ref sig .tc := ⟨.hbm, 100, rfl⟩
abbrev main_v77 : Ref sig .tc := ⟨.hbm, 101, rfl⟩
abbrev main_v78 : Ref sig .tc := ⟨.hbm, 102, rfl⟩
abbrev main_cst_11 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_12 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_13 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_c_14 : Ref sig .tc := ⟨.hbm, 124, rfl⟩
abbrev main_v97 : Ref sig .tc := ⟨.hbm, 125, rfl⟩
abbrev main_v98 : Ref sig .tc := ⟨.hbm, 126, rfl⟩
abbrev main_c_15 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_16 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_17 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_18 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_cst_19 : Ref sig .tc := ⟨.hbm, 167, rfl⟩
abbrev main_v135 : Ref sig .tc := ⟨.hbm, 168, rfl⟩
abbrev main_v136 : Ref sig .tc := ⟨.hbm, 169, rfl⟩
abbrev main_cst_20 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_cst_21 : Ref sig .tc := ⟨.hbm, 176, rfl⟩
abbrev main_v142 : Ref sig .tc := ⟨.hbm, 177, rfl⟩
abbrev main_v143 : Ref sig .tc := ⟨.hbm, 178, rfl⟩
abbrev main_cst_22 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_cst_23 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_cst_24 : Ref sig .tc := ⟨.hbm, 200, rfl⟩
abbrev main_v163 : Ref sig .tc := ⟨.hbm, 201, rfl⟩
abbrev main_v164 : Ref sig .tc := ⟨.hbm, 202, rfl⟩
abbrev main_cst_25 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_cst_26 : Ref sig .tc := ⟨.hbm, 209, rfl⟩
abbrev main_v170 : Ref sig .tc := ⟨.hbm, 210, rfl⟩
abbrev main_v171 : Ref sig .tc := ⟨.hbm, 211, rfl⟩
abbrev main_cst_27 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_cst_28 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_cst_29 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_c_30 : Ref sig .tc := ⟨.hbm, 233, rfl⟩
abbrev main_v190 : Ref sig .tc := ⟨.hbm, 234, rfl⟩
abbrev main_v191 : Ref sig .tc := ⟨.hbm, 235, rfl⟩
abbrev main_c_31 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_cst_32 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_cst_33 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_cst_34 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_cst_35 : Ref sig .tc := ⟨.hbm, 276, rfl⟩
abbrev main_v228 : Ref sig .tc := ⟨.hbm, 277, rfl⟩
abbrev main_v229 : Ref sig .tc := ⟨.hbm, 278, rfl⟩
abbrev main_cst_36 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_cst_37 : Ref sig .tc := ⟨.hbm, 285, rfl⟩
abbrev main_v235 : Ref sig .tc := ⟨.hbm, 286, rfl⟩
abbrev main_v236 : Ref sig .tc := ⟨.hbm, 287, rfl⟩
abbrev main_cst_38 : Ref sig .tc := ⟨.hbm, 288, rfl⟩
abbrev main_v237 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_cst_39 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x128_S1x128_0_0 : S2x128.Slices ![0, 0] S1x128
  slices_S3_S1_1 : S3.Slices ![1] S1
  slices_S3x128x128_S1x128x128_1_0_0 : S3x128x128.Slices ![1, 0, 0] S1x128x128
  slices_S3x128_S1x128_1_0 : S3x128.Slices ![1, 0] S1x128
  slices_S2x128_S1x128_1_0 : S2x128.Slices ![1, 0] S1x128
  slices_S3_S1_2 : S3.Slices ![2] S1
  slices_S3x128x128_S1x128x128_2_0_0 : S3x128x128.Slices ![2, 0, 0] S1x128x128
  slices_S3x128_S1x128_2_0 : S3x128.Slices ![2, 0] S1x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x128_S50000x128_1_0_0_1_n_n_wf : DotDims.WF S50000x128 S128x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run, with its result kept.

  The program is three layer kernels among stretches of host operations.  Its run passes through seven boundaries,
  at each of which every buffer's contents is named: the launch memory; then, alternately, what a stretch of host
  operations leaves and what a region's write-backs leave.  Launched from any memory with zero counters, every weakly
  fair execution terminates without a fault, and the final memory holds at EVERY unscoped buffer the last boundary's
  contents (`run_boundary`).  Read at the result's buffer and at the eleven arguments (which no host operation and no
  region writes), that is the value run (`run_value`).
-/
import proofs.«121161_j27779848470880_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a final memory holds: every unscoped buffer of every core at the last boundary's contents. -/
def AtLastBoundary (s : MemSt nD τ sig (Elt F)) : Prop :=
  ∀ (c : Dev nD), ∀ b ∈ Pipeline.ucRefs τ sig, s.mem (((c : Thread nD τ)).1, b) = W6 m ρ c b

/-- The launch element: the staging cells of all three pipelines and their launch tokens. -/
abbrev launchElt : UR sig nD τ := initOf (Pipeline.cells cfgs cellOf_inj) (Pipeline.launchToks cfgs cellOf_inj)

/-- The launch element yields the pipeline library's, and no further ghost resource per core. -/
theorem launch_ghost : (ownU (launchElt) : sProp 𝕄)
    ⊢ |={Set.univ}=> iprop(BI.own (emb₁ (initOf (Pipeline.cells (Pipeline.pin (pcfgs (F := F)) adm) cellOf_inj)
        (Pipeline.launchToks (Pipeline.pin (pcfgs (F := F)) adm) cellOf_inj))) ∗ bigSep Finset.univ (fun _ : Dev nD => (BI.emp : sProp 𝕄))) := by
  iintro H
  imodintro
  isplitl [H]
  · iapply (show (ownU (launchElt) : sProp 𝕄) ⊢ BI.own (emb₁ (initOf (Pipeline.cells (Pipeline.pin (pcfgs (F := F)) adm) cellOf_inj)
        (Pipeline.launchToks (Pipeline.pin (pcfgs (F := F)) adm) cellOf_inj))) from .rfl)
    iexact H
  · iapply (show (BI.emp : sProp 𝕄) ⊢ bigSep Finset.univ (fun _ : Dev nD => (BI.emp : sProp 𝕄)) from by rw [BI.bigSep_emp_const])
    iempintro

/-- The first thread state: every unscoped buffer at the launch memory, the generator register, nothing owed. -/
abbrev firstState (c : Dev nD) : sProp 𝕄 :=
  iprop(StableHlo.held (c : Thread nD τ) (Pipeline.ucRefs τ sig) (W0 m ρ c) ∗ R c)

/-- The last thread state, held beside a final state's interpretation, reads that state's memory. -/
theorem last_state_read (c : Dev nD) (s' : Phys nD τ sig (Elt F)) :
    iprop(Tₙ m ρ c ∗ SI s') ⊢ |={Set.univ}=> iprop(⌜∀ b ∈ Pipeline.ucRefs τ sig, s'.mem.mem (((c : Thread nD τ)).1, b) = W6 m ρ c b⌝ ∗ SI s') := by
  iintro ⟨⟨Hheld, -⟩, HSI⟩
  unfold StableHlo.held
  imodintro
  iapply (pointsTo_read_all (Pipeline.ucRefs τ sig) (fun b => (((c : Thread nD τ)).1, b)) (W6 m ρ c) s')
  isplitl [Hheld] <;> iassumption

set_option backward.isDefEq.respectTransparency.types false in
/-- Every weakly fair execution terminates, nothing faulting, with every unscoped buffer at the last boundary's contents. -/
theorem run_boundary : θ_run defs (onTc (τ := τ) (main (F := F))) ⟨m, fun _ => 0, ρ⟩ (fun r => AtLastBoundary m ρ r.2) :=
  Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp)) (u₀ := launchElt)
    (hu₀ := launch_ghost)
    (T₀ := firstState m ρ) (Tₙ := Tₙ m ρ)
    (hch := ⟨fun _ => .rfl, fun _ => .rfl, fun _ => .rfl, fun _ => .rfl, fun _ => .rfl, fun _ => .rfl, fun _ => .rfl⟩)
    (hinit := by
      -- what the launch deals to each core makes the first thread state: its unscoped buffers at the launch memory,
      -- its generator register, and its (empty) debt
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]
      · iexact Hbufs
      isplitl [Hprng]
      · iexists _; iexact Hprng
      · iexists ∅; iexact Howes)
    (QY := fun c s => ∀ b ∈ Pipeline.ucRefs τ sig, s.mem (((c : Thread nD τ)).1, b) = W6 m ρ c b)
    (hfin := last_state_read m ρ)
    (hQ := fun s h => h)

/-- The value run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v113) = W6 m ρ c (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    have at_ : ∀ (b : Ref sig .tc), ¬ (Proc.devRef .tc b : DevRef τ sig).isScoped →
        r.2.mem ((c.tc : Thread nD τ).loc b) = W6 m ρ c (Proc.devRef .tc b) :=
      fun b hb => h c (Proc.devRef .tc b) (mem_uc b hb)
    ⟨at_ main_v113 (by decide),
     (at_ main_arg0 (by decide)).trans (W6_main_arg0 m ρ c), (at_ main_arg1 (by decide)).trans (W6_main_arg1 m ρ c),
     (at_ main_arg2 (by decide)).trans (W6_main_arg2 m ρ c), (at_ main_arg3 (by decide)).trans (W6_main_arg3 m ρ c),
     (at_ main_arg4 (by decide)).trans (W6_main_arg4 m ρ c), (at_ main_arg5 (by decide)).trans (W6_main_arg5 m ρ c),
     (at_ main_arg6 (by decide)).trans (W6_main_arg6 m ρ c), (at_ main_arg7 (by decide)).trans (W6_main_arg7 m ρ c),
     (at_ main_arg8 (by decide)).trans (W6_main_arg8 m ρ c), (at_ main_arg9 (by decide)).trans (W6_main_arg9 m ρ c),
     (at_ main_arg10 (by decide)).trans (W6_main_arg10 m ρ c)⟩)
    (run_boundary m ρ)

end Cert.KernelIdeal.Hand

end
-- ==== Proof.LayerSpec.lean ====
/-
  The layer as one function of whole arrays, in the reference's spelling.

  With `h` the 50000 × 128 array of node features and `a` the array of neighbours' sums,

      perceptron ε h a W₁ b₁ W₂ b₂ = max (((1 + ε) · h + a) · W₁ + b₁) 0 · W₂ + b₂
      rowNorm u g b                = (u − μ) · (σ² + 10⁻⁵)^(−1/2) · g + b     (μ, σ²: each row's mean and variance)
      layerSkip … = max (rowNorm (rowNorm (perceptron …) g b) g' b') 0 + h
      layerLast … = rowNorm (perceptron …) g b + h

  and the neighbours' sum of `h` along the edge list is `nbrSum`: gather the source rows, add them into the
  destination rows.  The reference program is these composed three times, each layer reading the previous layer's
  output both as `h` and, through `nbrSum`, as `a`; its generated run names the intermediate buffers, and this module
  identifies the three layer outputs among them with the functions above.
-/
import proofs.«121161_j27779848470880_1_alg».proof.Proof.Gen.ReferenceIdeal.Run
import Idealize.ShloMosaic.PureOps.Ideal
import Idealize.ShloMosaic.PureOps.Ideal.Laws

set_option maxRecDepth 16384

noncomputable section

namespace Cert.ReferenceIdeal.Spec

open Cert.ReferenceIdeal Cert.ReferenceIdeal.Gen Cert.ReferenceIdeal.Value
open Idealize.ShloMosaic Idealize.ShloMosaic.TcCoe Idealize.SL.Sem Idealize.ShloMosaic.StableHlo

abbrev Arr := FVec Ideal S50000x128 .f32
abbrev Mat := FVec Ideal S128x128 .f32
abbrev Vec128 := FVec Ideal S128 .f32
abbrev Col := FVec Ideal S50000x1 .f32
abbrev Scal := FVec Ideal S_ .f32

/-- A vector of 128 spread over the 50000 rows. -/
abbrev spread (b : Vec128) : Arr :=
  broadcastInDim S50000x128 ![0, 1] bcast_S1x128_S50000x128_0_1 (broadcastInDim S1x128 ![1] bcast_S128_S1x128_1 b)

/-- The all-zero array. -/
abbrev zeros : Arr := broadcastInDim S50000x128 ![] bcast_S_S50000x128 (constant (F := Ideal) S_ .f32 0x00000000#32)

/-- `max (((1 + ε) · h + a) · W₁ + b₁) 0 · W₂ + b₂`. -/
def perceptron (e : Scal) (h a : Arr) (W1 : Mat) (b1 : Vec128) (W2 : Mat) (b2 : Vec128) : Arr :=
  addf (Host.dotGeneral dot_S50000x128_S128x128_S50000x128_1_0_0_1_n_n none
      (maximumf (addf (Host.dotGeneral dot_S50000x128_S128x128_S50000x128_1_0_0_1_n_n none
          (addf (mulf (broadcastInDim S50000x128 ![] bcast_S_S50000x128 (addf (constant (F := Ideal) S_ .f32 0x3F800000#32) e)) h) a) W1)
          (spread b1)) zeros) W2)
    (spread b2)

/-- Each row's mean, as a column. -/
def rowMean (u : Arr) : Col :=
  Host.divf (broadcastInDim S50000x1 ![0] bcast_S50000_S50000x1_0 (Host.reduceAdd u (constant (F := Ideal) S_ .f32 0x00000000#32) reducesTo_S50000x128_S50000_d1 h_S_))
    (broadcastInDim S50000x1 ![] bcast_S_S50000x1 (constant (F := Ideal) S_ .f32 0x43000000#32))

/-- Each row's deviations from its mean. -/
def rowDev (u : Arr) : Arr := subf u (broadcastInDim S50000x128 ![0, 1] bcast_S50000x1_S50000x128_0_1 (rowMean u))

/-- `(u − μ) · (σ² + 10⁻⁵)^(−1/2) · g + b`, row by row. -/
def rowNorm (u : Arr) (g b : Vec128) : Arr :=
  addf (mulf (mulf (subf u (broadcastInDim S50000x128 ![0, 1] bcast_S50000x1_S50000x128_0_1 (rowMean u)))
      (broadcastInDim S50000x128 ![0, 1] bcast_S50000x1_S50000x128_0_1 (Host.rsqrt (addf
        (Host.divf (broadcastInDim S50000x1 ![0] bcast_S50000_S50000x1_0 (Host.reduceAdd (mulf (rowDev u) (rowDev u)) (constant (F := Ideal) S_ .f32 0x00000000#32) reducesTo_S50000x128_S50000_d1 h_S_))
          (broadcastInDim S50000x1 ![] bcast_S_S50000x1 (constant (F := Ideal) S_ .f32 0x43000000#32)))
        (broadcastInDim S50000x1 ![] bcast_S_S50000x1 (constant (F := Ideal) S_ .f32 0x3727C5AC#32))))))
      (spread g))
    (spread b)

/-- A layer with the second normalisation, the rectifier and the residual. -/
def layerSkip (e : Scal) (h a : Arr) (W1 : Mat) (b1 : Vec128) (W2 : Mat) (b2 g c g' c' : Vec128) : Arr :=
  addf (maximumf (rowNorm (rowNorm (perceptron e h a W1 b1 W2 b2) g c) g' c') zeros) h

/-- The last layer: one normalisation and the residual. -/
def layerLast (e : Scal) (h a : Arr) (W1 : Mat) (b1 : Vec128) (W2 : Mat) (b2 g c : Vec128) : Arr :=
  addf (rowNorm (perceptron e h a W1 b1 W2 b2) g c) h

variable (L : Valuation τ sig (Elt Ideal))

/-- The neighbours' sum of `h` along the edge list (sources `res_main_v1`, destinations `res_main_v3`): the source
    rows gathered (a negative index counted from the end) and added into the destination rows of a zero array. -/
def nbrSum (h : Arr) : Arr :=
  Host.scatterAdd scatter_S50000x128_S640000x1_S640000x128_1_0_0_1 zeros
    (broadcastInDim S640000x1 ![0] bcast_S640000_S640000x1_0 (res_main_v3 L))
    (Host.gather gather_S50000x128_S640000x1_S640000x128_1_0_n_n_0_1_1128 h
      (broadcastInDim S640000x1 ![0] bcast_S640000_S640000x1_0
        (select (cmpi .slt (res_main_v1 L) (broadcastInDim S640000 ![] bcast_S_S640000 (constantI S_ 32 0#32)))
          (addi (res_main_v1 L) (broadcastInDim S640000 ![] bcast_S_S640000 (constantI S_ 32 50000#32))) (res_main_v1 L))))

/-! The parameters of layer `k`: slice `k` of each stacked parameter array. -/

abbrev eps0 : Scal := shapeCast S_ (extractStridedSlice S1 ![0] (L (Proc.devRef .tc main_arg2)) slices_S3_S1_0) shapeCasts_S1_S_
abbrev eps1 : Scal := shapeCast S_ (extractStridedSlice S1 ![1] (L (Proc.devRef .tc main_arg2)) slices_S3_S1_1) shapeCasts_S1_S_
abbrev eps2 : Scal := shapeCast S_ (extractStridedSlice S1 ![2] (L (Proc.devRef .tc main_arg2)) slices_S3_S1_2) shapeCasts_S1_S_
abbrev w1_0 : Mat := shapeCast S128x128 (extractStridedSlice S1x128x128 ![0, 0, 0] (L (Proc.devRef .tc main_arg3)) slices_S3x128x128_S1x128x128_0_0_0) shapeCasts_S1x128x128_S128x128
abbrev w2_0 : Mat := shapeCast S128x128 (extractStridedSlice S1x128x128 ![0, 0, 0] (L (Proc.devRef .tc main_arg5)) slices_S3x128x128_S1x128x128_0_0_0) shapeCasts_S1x128x128_S128x128
abbrev b1_0 : Vec128 := shapeCast S128 (extractStridedSlice S1x128 ![0, 0] (L (Proc.devRef .tc main_arg4)) slices_S3x128_S1x128_0_0) shapeCasts_S1x128_S128
abbrev b2_0 : Vec128 := shapeCast S128 (extractStridedSlice S1x128 ![0, 0] (L (Proc.devRef .tc main_arg6)) slices_S3x128_S1x128_0_0) shapeCasts_S1x128_S128
abbrev g_0 : Vec128 := shapeCast S128 (extractStridedSlice S1x128 ![0, 0] (L (Proc.devRef .tc main_arg7)) slices_S3x128_S1x128_0_0) shapeCasts_S1x128_S128
abbrev c_0 : Vec128 := shapeCast S128 (extractStridedSlice S1x128 ![0, 0] (L (Proc.devRef .tc main_arg8)) slices_S3x128_S1x128_0_0) shapeCasts_S1x128_S128
abbrev gs_0 : Vec128 := shapeCast S128 (extractStridedSlice S1x128 ![0, 0] (L (Proc.devRef .tc main_arg9)) slices_S2x128_S1x128_0_0) shapeCasts_S1x128_S128
abbrev cs_0 : Vec128 := shapeCast S128 (extractStridedSlice S1x128 ![0, 0] (L (Proc.devRef .tc main_arg10)) slices_S2x128_S1x128_0_0) shapeCasts_S1x128_S128
abbrev w1_1 : Mat := shapeCast S128x128 (extractStridedSlice S1x128x128 ![1, 0, 0] (L (Proc.devRef .tc main_arg3)) slices_S3x128x128_S1x128x128_1_0_0) shapeCasts_S1x128x128_S128x128
abbrev w2_1 : Mat := shapeCast S128x128 (extractStridedSlice S1x128x128 ![1, 0, 0] (L (Proc.devRef .tc main_arg5)) slices_S3x128x128_S1x128x128_1_0_0) shapeCasts_S1x128x128_S128x128
abbrev b1_1 : Vec128 := shapeCast S128 (extractStridedSlice S1x128 ![1, 0] (L (Proc.devRef .tc main_arg4)) slices_S3x128_S1x128_1_0) shapeCasts_S1x128_S128
abbrev b2_1 : Vec128 := shapeCast S128 (extractStridedSlice S1x128 ![1, 0] (L (Proc.devRef .tc main_arg6)) slices_S3x128_S1x128_1_0) shapeCasts_S1x128_S128
abbrev g_1 : Vec128 := shapeCast S128 (extractStridedSlice S1x128 ![1, 0] (L (Proc.devRef .tc main_arg7)) slices_S3x128_S1x128_1_0) shapeCasts_S1x128_S128
abbrev c_1 : Vec128 := shapeCast S128 (extractStridedSlice S1x128 ![1, 0] (L (Proc.devRef .tc main_arg8)) slices_S3x128_S1x128_1_0) shapeCasts_S1x128_S128
abbrev gs_1 : Vec128 := shapeCast S128 (extractStridedSlice S1x128 ![1, 0] (L (Proc.devRef .tc main_arg9)) slices_S2x128_S1x128_1_0) shapeCasts_S1x128_S128
abbrev cs_1 : Vec128 := shapeCast S128 (extractStridedSlice S1x128 ![1, 0] (L (Proc.devRef .tc main_arg10)) slices_S2x128_S1x128_1_0) shapeCasts_S1x128_S128
abbrev w1_2 : Mat := shapeCast S128x128 (extractStridedSlice S1x128x128 ![2, 0, 0] (L (Proc.devRef .tc main_arg3)) slices_S3x128x128_S1x128x128_2_0_0) shapeCasts_S1x128x128_S128x128
abbrev w2_2 : Mat := shapeCast S128x128 (extractStridedSlice S1x128x128 ![2, 0, 0] (L (Proc.devRef .tc main_arg5)) slices_S3x128x128_S1x128x128_2_0_0) shapeCasts_S1x128x128_S128x128
abbrev b1_2 : Vec128 := shapeCast S128 (extractStridedSlice S1x128 ![2, 0] (L (Proc.devRef .tc main_arg4)) slices_S3x128_S1x128_2_0) shapeCasts_S1x128_S128
abbrev b2_2 : Vec128 := shapeCast S128 (extractStridedSlice S1x128 ![2, 0] (L (Proc.devRef .tc main_arg6)) slices_S3x128_S1x128_2_0) shapeCasts_S1x128_S128
abbrev g_2 : Vec128 := shapeCast S128 (extractStridedSlice S1x128 ![2, 0] (L (Proc.devRef .tc main_arg7)) slices_S3x128_S1x128_2_0) shapeCasts_S1x128_S128
abbrev c_2 : Vec128 := shapeCast S128 (extractStridedSlice S1x128 ![2, 0] (L (Proc.devRef .tc main_arg8)) slices_S3x128_S1x128_2_0) shapeCasts_S1x128_S128

/-! ## The reference's three layer outputs -/

set_option maxHeartbeats 4000000 in
/-- The first layer's output. -/
theorem layer0_eq : res_main_v96 L
    = layerSkip (eps0 L) (L (Proc.devRef .tc main_arg0)) (nbrSum L (L (Proc.devRef .tc main_arg0)))
        (w1_0 L) (b1_0 L) (w2_0 L) (b2_0 L) (g_0 L) (c_0 L) (gs_0 L) (cs_0 L) := rfl

set_option maxHeartbeats 4000000 in
/-- The second layer's output. -/
theorem layer1_eq : res_main_v189 L
    = layerSkip (eps1 L) (res_main_v96 L) (nbrSum L (res_main_v96 L))
        (w1_1 L) (b1_1 L) (w2_1 L) (b2_1 L) (g_1 L) (c_1 L) (gs_1 L) (cs_1 L) := rfl

set_option maxHeartbeats 4000000 in
/-- The program's result: the third layer's output. -/
theorem layer2_eq : val5 L (Proc.devRef .tc main_v252)
    = layerLast (eps2 L) (res_main_v189 L) (nbrSum L (res_main_v189 L))
        (w1_2 L) (b1_2 L) (w2_2 L) (b2_2 L) (g_2 L) (c_2 L) :=
  (val5_main_v252 L).trans rfl

end Cert.ReferenceIdeal.Spec

end
-- ==== Proof.LibRowOps.lean ====
/-
  Rank-two arrays read at an index, over abstract extents.

  * A plain matrix product — rows by contraction times contraction by columns, no batch axis — read at
    `(p, q)` is the sum over the contraction axis of left `(p, k)` times right `(k, q)`: for a kernel's product
    into a zero accumulator and for the host's `dot_general` alike, at the ideal values.
  * A vector of length `N` spread over the rows of an `M × N` array, read at `(p, q)`, is the vector at `q`:
    spelt as a shape cast followed by a broadcast, or as two `broadcast_in_dim`s.
  * A unit-stride slice of columns (of entries, for a vector) read at an index is the operand at the shifted index.
  * A scalar constant spread over any shape reads as the constant's value.
-/
import Idealize.ShloMosaic.PureOps.Ideal.Laws
import Idealize.ShloMosaic.Lib.ValueIdx
import Idealize.ShloMosaic.Lib.Pipeline.Value

noncomputable section

open scoped BigOperators

namespace Cert.Lib.RowOps

open Idealize.ShloMosaic Idealize.ShloMosaic.ValueIdx

/-! ## Plain matrix products -/

/-- The contraction of a plain product at `(p, q)`, re-indexed by the contraction axis itself. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- A kernel's plain product into the zero accumulator, at `(p, q)`. -/
theorem matmul_zero_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum M K N l r p q

/-- The host's plain `dot_general` at `(p, q)`. -/
theorem dotGeneral_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum M K N l r p q

/-! ## A vector spread over the rows -/

section Spread

variable {α : Type}

/-- Shape cast to one row, then broadcast over `M` rows. -/
theorem castRow_broadcast_apply (M N : Nat) (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_apply _ h2 (ix2 p q) (ix2 (0 : Fin 1) q) (fun a => by
    match a with
    | ⟨0, _⟩ => simp
    | ⟨1, _⟩ =>
      show q.val = if N = 1 then 0 else q.val
      split
      · have := q.isLt; omega
      · rfl)]
  rw [shapeCast_addUnit_apply ![N] b h1 (ix2 (0 : Fin 1) q)]
  exact congrArg b (funext fun a => by match a with | ⟨0, _⟩ => rfl)

/-- `broadcast_in_dim` to one row, then over `M` rows. -/
theorem bcastRow_bcast_apply (M N : Nat) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => simp
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-! ## Slices -/

/-- Columns `o … o + N - 1` of an `M × N'` array. -/
theorem sliceCols_apply (M N' N o : Nat) (x : (⟨2, ![M, N']⟩ : Shape).Idx → α)
    (h : (⟨2, ![M, N']⟩ : Shape).Slices ![0, o] ⟨2, ![M, N]⟩) (p : Fin M) (q : Fin N) (hlt : o + q.val < N') :
    extractStridedSlice ⟨2, ![M, N]⟩ ![0, o] x h (ix2 p q) = x (ix2 p ⟨o + q.val, hlt⟩) :=
  extractStridedSlice_apply ![0, o] x h (ix2 p q) (ix2 p ⟨o + q.val, hlt⟩) (fun a => by
    match a with
    | ⟨0, _⟩ => show p.val = 0 + p.val; omega
    | ⟨1, _⟩ => rfl)

/-- Entries `o … o + N - 1` of a vector of length `N'`. -/
theorem sliceVec_apply (N' N o : Nat) (x : (⟨1, ![N']⟩ : Shape).Idx → α)
    (h : (⟨1, ![N']⟩ : Shape).Slices ![o] ⟨1, ![N]⟩) (q : Fin N) (hlt : o + q.val < N') :
    extractStridedSlice ⟨1, ![N]⟩ ![o] x h (ix1 q) = x (ix1 ⟨o + q.val, hlt⟩) :=
  extractStridedSlice_apply ![o] x h (ix1 q) (ix1 ⟨o + q.val, hlt⟩) (fun a => by
    match a with
    | ⟨0, _⟩ => rfl)

end Spread

/-! ## One-operand operations at an index (definitional at the ideal values) -/

section Pointwise

variable {s : Shape} {φ : FTy}

theorem hostDivf_apply (x y : FVec Ideal s φ) (i : s.Idx) : Host.divf x y i = Ideal.div (x i) (y i) := rfl
theorem hostExp_apply (x : FVec Ideal s φ) (i : s.Idx) : Host.exp x i = Ideal.exp (x i) := rfl
theorem hostNegf_apply (x : FVec Ideal s φ) (i : s.Idx) : Host.negf x i = -(x i) := rfl
theorem hostTanh_apply (x : FVec Ideal s φ) (i : s.Idx) : Host.tanh x i = Ideal.tanh (x i) := rfl
theorem tanh_apply (x : FVec Ideal s φ) (i : s.Idx) : tanh x i = Ideal.tanh (x i) := rfl
theorem logistic_apply (x : FVec Ideal s φ) (i : s.Idx) : logistic x i = Ideal.logistic (x i) := rfl

end Pointwise

/-! ## Scalar constants spread over a shape -/

/-- The host's `broadcast_in_dim` of a scalar constant. -/
theorem splat_apply {φ : FTy} (t : Shape) (h : (⟨0, ![]⟩ : Shape).BroadcastsInDim t ![]) (w : BitVec φ.bits) (i : t.Idx) :
    broadcastInDim t ![] h (constant (F := Ideal) ⟨0, ![]⟩ φ w) i = Ideal.ofBits φ w := by
  rw [broadcastInDim_apply ![] h _ i ix0 (fun a => a.elim0)]
  rfl

end Cert.Lib.RowOps

end
-- ==== Proof.LibGru.lean ====
/-
  One layer's arithmetic on a single node, on the extended reals.

  A node's aggregated features `row` (128 numbers) pass through: the bias and the rectifier,
  `h k = max (row k + b k) 0`; the input-to-gates product, `gi q = Σ k, h k · wt k q + bih q` for the 384 gate
  pre-activations (reset, update, candidate: three groups of 128); and the gated recurrent cell at a zero previous
  state, `out j = (1 − σ(gi (128 + j) + bhh (128 + j))) · tanh (gi (256 + j) + σ(gi j + bhh j) · bhh (256 + j))`,
  with `σ x = 1 / (1 + e⁻ˣ)`.  The zero and the one are kept as the values of their bit patterns.
-/
import Idealize.ShloMosaic.PureOps.Ideal.Laws

noncomputable section

open scoped BigOperators

namespace Cert.Lib.Gru

open Idealize.ShloMosaic

/-- The 384 gate pre-activations of one node. -/
def gates (row b : Fin 128 → EReal) (wt : Fin 128 → Fin 384 → EReal) (bih : Fin 384 → EReal) (q : Fin 384) : EReal :=
  (∑ k : Fin 128, max (row k + b k) (Ideal.ofBits .f32 0x00000000#32) * wt k q) + bih q

/-- The logistic function, as the quotient the host spells. -/
def sigm (x : EReal) : EReal :=
  Ideal.div (Ideal.ofBits .f32 0x3F800000#32) (Ideal.ofBits .f32 0x3F800000#32 + Ideal.exp (-x))

/-- The cell's output at hidden unit `j`, from the node's gate pre-activations and the hidden-side biases. -/
def cell (gi bhh : Fin 384 → EReal) (j : Fin 128) : EReal :=
  (Ideal.ofBits .f32 0x3F800000#32 - sigm (gi ⟨128 + j.val, by have := j.isLt; omega⟩ + bhh ⟨128 + j.val, by have := j.isLt; omega⟩))
    * Ideal.tanh (gi ⟨256 + j.val, by have := j.isLt; omega⟩
        + sigm (gi ⟨0 + j.val, by have := j.isLt; omega⟩ + bhh ⟨0 + j.val, by have := j.isLt; omega⟩) * bhh ⟨256 + j.val, by have := j.isLt; omega⟩)

/-- The bit pattern `0x3F800000` is the number one. -/
theorem ofBits_one : Ideal.ofBits .f32 0x3F800000#32 = (1 : EReal) := by
  simp [Ideal.ofBits, Ideal.ieee, -EReal.coe_mul]; norm_num

/-- The kernel's logistic operation is the host's quotient. -/
theorem logistic_eq_sigm (x : EReal) : Ideal.logistic x = sigm x := by
  unfold sigm Ideal.logistic
  rw [ofBits_one]

end Cert.Lib.Gru

end
-- ==== Proof.LibRowBlocks.lean ====
/-
  A long rank-two array against a block of consecutive rows of it.

  `RowsOf E M A o arr blk` says that `blk`, of `M` rows, holds rows `o, o + 1, …, o + M - 1` of the `E`-row array
  `arr` (each of `A` columns).  Every operation that acts on each row by itself carries the relation from its
  operands to its result, when the long side is spelt with the host's operations and the block side with a kernel's:

  * a plain matrix product with a matrix that both sides hold whole — the host's `dot_general` of the long array
    against a kernel's product of the block into a zero accumulator (row `r` of the product depends on row `r` of the
    left operand only);
  * the pointwise sum and product;
  * a vector spread over the rows — two `broadcast_in_dim`s on the long side, a shape cast and a broadcast on the block;
  * `z ↦ z · σ(z)` with `σ(z) = 1 / (1 + e⁻ᶻ)`: on the long side the quotient spelt out with the word of the number
    one, on the block the logistic operation;
  * a change of float format on the block, which does nothing to an extended real, and a shape cast of the block to
    its own shape.
-/
import Idealize.ShloMosaic.PureOps.Ideal.Laws
import Idealize.ShloMosaic.Lib.ValueIdx
import Idealize.ShloMosaic.Lib.Pipeline.Value
import proofs.«121161_j27779848470880_1_alg».proof.Proof.LibRowOps
import proofs.«121161_j27779848470880_1_alg».proof.Proof.LibGru

noncomputable section

open scoped BigOperators

namespace Cert.Lib.RowBlocks

open Idealize.ShloMosaic Idealize.ShloMosaic.ValueIdx Cert.Lib.RowOps

/-- `blk` holds rows `o … o + M - 1` of `arr`. -/
def RowsOf (E M A o : Nat) (arr : (⟨2, ![E, A]⟩ : Shape).Idx → EReal) (blk : (⟨2, ![M, A]⟩ : Shape).Idx → EReal) : Prop :=
  ∀ (y : Fin M) (k : Fin A) (h : o + y.val < E), blk (ix2 y k) = arr (ix2 ⟨o + y.val, h⟩ k)

variable {E M A o : Nat}

/-- A change of float format on the block side is the identity on extended reals. -/
theorem RowsOf.truncf {φ ψ : FTy} {X : (⟨2, ![E, A]⟩ : Shape).Idx → EReal} {Xb : FVec Ideal ⟨2, ![M, A]⟩ φ}
    (h : ψ.bits < φ.bits) (hX : RowsOf E M A o X Xb) : RowsOf E M A o X (truncf ψ Xb h) := hX

/-- A shape cast to the same shape on the block side is the identity. -/
theorem RowsOf.castSelf {X : (⟨2, ![E, A]⟩ : Shape).Idx → EReal} {Xb : (⟨2, ![M, A]⟩ : Shape).Idx → EReal}
    (h : (⟨2, ![M, A]⟩ : Shape).ShapeCasts ⟨2, ![M, A]⟩) (hX : RowsOf E M A o X Xb) :
    RowsOf E M A o X (shapeCast ⟨2, ![M, A]⟩ Xb h) := by
  rw [shapeCast_self]; exact hX

/-- An array equal to `W` entry by entry stays so under a shape cast to its own shape. -/
theorem castSelf_eq {s : Shape} (v W : s.Idx → EReal) (h : s.ShapeCasts s) (hv : ∀ i, v i = W i) :
    ∀ i, shapeCast s v h i = W i := by
  rw [shapeCast_self]; exact hv

/-- The host's plain product of the long array with `W` against a kernel's product of the block with `Wb` into a
    zero accumulator, when `Wb` is `W` entry by entry. -/
theorem RowsOf.dot {K N : Nat} {φ₁ φ₂ φ₃ φ₄ : FTy} {X : FVec Ideal ⟨2, ![E, K]⟩ φ₁} {Xb : FVec Ideal ⟨2, ![M, K]⟩ φ₃}
    (hX : RowsOf E M K o X Xb) (W : FVec Ideal ⟨2, ![K, N]⟩ φ₂) (Wb : FVec Ideal ⟨2, ![K, N]⟩ φ₄) (hW : ∀ i, Wb i = W i)
    (prec prec' : Option ContractPrecision) (sched : HostSchedule) :
    RowsOf E M N o (FloatOps.dotGeneral (DotDims.plain E K N) prec sched X W)
      (FloatOps.matmul (DotDims.plain M K N) prec' Xb Wb (constant ⟨2, ![M, N]⟩ .f32 0x00000000#32)) := fun y q h => by
  rw [matmul_zero_apply, dotGeneral_apply]
  exact Finset.sum_congr rfl fun k _ => by rw [hX y k h, hW]

/-- Pointwise sums. -/
theorem RowsOf.add {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (addf X Y) (addf Xb Yb) := fun y k h => by
  show (Xb (ix2 y k) : EReal) + Yb (ix2 y k) = X _ + Y _
  rw [hX y k h, hY y k h]

/-- Pointwise products. -/
theorem RowsOf.mul {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (mulf X Y) (mulf Xb Yb) := fun y k h => by
  show (Xb (ix2 y k) : EReal) * Yb (ix2 y k) = X _ * Y _
  rw [hX y k h, hY y k h]

/-- A vector spread over the rows: two `broadcast_in_dim`s of `b` on the long side, a shape cast and a broadcast of
    `bb` on the block, when `bb` is `b` entry by entry. -/
theorem RowsOf.bias {N : Nat} (b bb : (⟨1, ![N]⟩ : Shape).Idx → EReal) (hb : ∀ i, bb i = b i)
    (h1 : (⟨1, ![N]⟩ : Shape).BroadcastsInDim ⟨2, ![1, N]⟩ ![1])
    (h2 : (⟨2, ![1, N]⟩ : Shape).BroadcastsInDim ⟨2, ![E, N]⟩ ![0, 1])
    (h1' : (⟨1, ![N]⟩ : Shape).ShapeCasts ⟨2, ![1, N]⟩) (h2' : (⟨2, ![1, N]⟩ : Shape).Broadcasts ⟨2, ![M, N]⟩) :
    RowsOf E M N o (broadcastInDim ⟨2, ![E, N]⟩ ![0, 1] h2 (broadcastInDim ⟨2, ![1, N]⟩ ![1] h1 b))
      (broadcastTo ⟨2, ![M, N]⟩ (shapeCast ⟨2, ![1, N]⟩ bb h1') h2') := fun y q h => by
  rw [castRow_broadcast_apply, bcastRow_bcast_apply, hb]

/-- `z ↦ z · σ(z)`: the host's quotient `1 / (1 + e⁻ᶻ)` with the word of the number one on the long side, the logistic
    operation on the block. -/
theorem RowsOf.silu {Z : FVec Ideal ⟨2, ![E, A]⟩ .f32} {Zb : FVec Ideal ⟨2, ![M, A]⟩ .f32} (hZ : RowsOf E M A o Z Zb)
    (h1 h2 : (⟨0, ![]⟩ : Shape).BroadcastsInDim ⟨2, ![E, A]⟩ ![]) :
    RowsOf E M A o
      (mulf Z (Host.divf (broadcastInDim ⟨2, ![E, A]⟩ ![] h1 (constant (F := Ideal) ⟨0, ![]⟩ .f32 0x3F800000#32))
        (addf (broadcastInDim ⟨2, ![E, A]⟩ ![] h2 (constant (F := Ideal) ⟨0, ![]⟩ .f32 0x3F800000#32)) (Host.exp (Host.negf Z)))))
      (mulf Zb (logistic Zb)) := fun y k h => by
  show (Zb (ix2 y k) : EReal) * Ideal.logistic (Zb (ix2 y k))
    = Z _ * Ideal.div (Ideal.ofBits .f32 0x3F800000#32) (Ideal.ofBits .f32 0x3F800000#32 + Ideal.exp (-(Z _)))
  rw [hZ y k h, Cert.Lib.Gru.logistic_eq_sigm]
  rfl

end Cert.Lib.RowBlocks

end
-- ==== Proof.LibRowNorm.lean ====
/-
  Rows of a long rank-two array against a block of consecutive rows of it, continued: the operations of a
  normalisation over each row.

  With `RowsOf E M A o arr blk` — `blk`, of `M` rows, holds rows `o, …, o + M - 1` of the `E`-row array `arr` —
  each of the following carries the relation from operands to result, the long side spelt with the host's operations
  and the block side with a kernel's:

  * the pointwise difference, maximum and quotient, and the reciprocal square root;
  * a scalar constant spread over the whole array, and a scalar value held in a 1 × 1 block spread over it;
  * the sum of each row, as a one-column array (rows of the column are rows of the array): the host's reduction
    along axis 1 followed by a `broadcast_in_dim` to a column, against a lane reduction followed by a shape cast;
  * a one-column array spread over the columns.
-/
import Idealize.ShloMosaic.PureOps.Ideal.Laws
import Idealize.ShloMosaic.Lib.ValueIdx
import Idealize.ShloMosaic.Lib.Pipeline.Value
import Idealize.ShloMosaic.Lib.ValueLayout
import proofs.«121161_j27779848470880_1_alg».proof.Proof.LibRowBlocks

noncomputable section

open scoped BigOperators

namespace Cert.Lib.RowBlocks

open Idealize.ShloMosaic Idealize.ShloMosaic.ValueIdx Cert.Lib.RowOps

variable {E M A o : Nat}

/-- Pointwise differences. -/
theorem RowsOf.sub {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (subf X Y) (subf Xb Yb) := by
  intro y k h
  show (Xb (ix2 y k) : EReal) - Yb (ix2 y k) = X _ - Y _
  rw [hX y k h, hY y k h]

/-- Pointwise maxima. -/
theorem RowsOf.max {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (maximumf X Y) (maximumf Xb Yb) := by
  intro y k h
  show Max.max (Xb (ix2 y k) : EReal) (Yb (ix2 y k)) = Max.max (X _) (Y _)
  rw [hX y k h, hY y k h]

/-- Pointwise quotients: the host's division on the long side, a kernel's on the block. -/
theorem RowsOf.hostDiv {φ φ' : FTy} {X Y : FVec Ideal ⟨2, ![E, A]⟩ φ} {Xb Yb : FVec Ideal ⟨2, ![M, A]⟩ φ'}
    (hX : RowsOf E M A o X Xb) (hY : RowsOf E M A o Y Yb) : RowsOf E M A o (Host.divf X Y) (divf Xb Yb) := by
  intro y k h
  show Ideal.div (Xb (ix2 y k)) (Yb (ix2 y k)) = Ideal.div (X _) (Y _)
  rw [hX y k h, hY y k h]

/-- Reciprocal square roots: the host's on the long side, a kernel's on the block. -/
theorem RowsOf.rsqrt {φ φ' : FTy} {X : FVec Ideal ⟨2, ![E, A]⟩ φ} {Xb : FVec Ideal ⟨2, ![M, A]⟩ φ'}
    (hX : RowsOf E M A o X Xb) : RowsOf E M A o (Host.rsqrt X) (rsqrt Xb) := by
  intro y k h
  show Ideal.rsqrt (Xb (ix2 y k)) = Ideal.rsqrt (X _)
  rw [hX y k h]

/-- A scalar constant spread over the whole array: the host's `broadcast_in_dim` of a rank-zero constant on the long
    side, a kernel's splat of the same word on the block. -/
theorem RowsOf.splat (w : BitVec 32) (h : (⟨0, ![]⟩ : Shape).BroadcastsInDim ⟨2, ![E, A]⟩ ![]) :
    RowsOf E M A o (broadcastInDim ⟨2, ![E, A]⟩ ![] h (constant (F := Ideal) ⟨0, ![]⟩ .f32 w))
      (broadcast ⟨2, ![M, A]⟩ (Scalar.ofBits (F := Ideal) .f32 w)) := by
  intro y k hlt
  -- both sides read the value of the word `w` at every index
  rw [splat_apply]
  rfl

/-- A scalar value spread over the whole array: rank zero on the long side, held in a 1 × 1 block on the other. -/
theorem RowsOf.scalar (s : (⟨0, ![]⟩ : Shape).Idx → EReal) (sb : (⟨2, ![1, 1]⟩ : Shape).Idx → EReal)
    (hs : sb (ix2 (0 : Fin 1) (0 : Fin 1)) = s ix0)
    (h : (⟨0, ![]⟩ : Shape).BroadcastsInDim ⟨2, ![E, A]⟩ ![]) (h' : (⟨2, ![1, 1]⟩ : Shape).Broadcasts ⟨2, ![M, A]⟩) :
    RowsOf E M A o (broadcastInDim ⟨2, ![E, A]⟩ ![] h s) (broadcastTo ⟨2, ![M, A]⟩ sb h') := by
  intro y k hlt
  -- the long side reads `s` at its one index, the block side `sb` at `(0, 0)`
  rw [broadcastInDim_apply ![] h s _ ix0 (fun a => a.elim0)]
  rw [broadcastTo_apply sb h' (ix2 y k) (ix2 (0 : Fin 1) (0 : Fin 1)) (fun a => by
    match a with
    | ⟨0, _⟩ => simp
    | ⟨1, _⟩ => simp)]
  exact hs

/-- The sum of each row as a one-column array: row `r` of the column is the sum of row `r` of the array, so the
    block's column holds the rows of the long column that the block holds of the long array. -/
theorem RowsOf.rowSum {X : FVec Ideal ⟨2, ![E, A]⟩ .f32} {Xb : FVec Ideal ⟨2, ![M, A]⟩ .f32} (hX : RowsOf E M A o X Xb)
    (hr : (⟨2, ![E, A]⟩ : Shape).ReducesTo [1] ⟨1, ![E]⟩) (hu : 0 < (⟨0, ![]⟩ : Shape).numel)
    (hb : (⟨1, ![E]⟩ : Shape).BroadcastsInDim ⟨2, ![E, 1]⟩ ![0])
    (hred : (⟨2, ![M, A]⟩ : Shape).Reduces [1] ⟨1, ![M]⟩) (hφ : FKind.Formats .f32)
    (hacc : (0x00000000#32 : BitVec 32) = FKind.add.neutral .f32 hφ)
    (hc : (⟨1, ![M]⟩ : Shape).ShapeCasts ⟨2, ![M, 1]⟩) :
    RowsOf E M 1 o
      (broadcastInDim ⟨2, ![E, 1]⟩ ![0] hb (Host.reduceAdd X (constant (F := Ideal) ⟨0, ![]⟩ .f32 0x00000000#32) hr hu))
      (shapeCast ⟨2, ![M, 1]⟩ (multiReduction .add [1] ⟨1, ![M]⟩ Xb 0x00000000#32 hred hφ hacc) hc) := by
  intro y k hlt
  have hR : (⟨2, ![E, A]⟩ : Shape).Reduces [1] ⟨1, ![E]⟩ := ⟨hr.1, Nat.one_pos, hr.2⟩
  -- the long column at `(o + y, k)` is the host's sum at `o + y`
  rw [broadcastInDim_apply ![0] hb _ (ix2 ⟨o + y.val, hlt⟩ k) (ix1 ⟨o + y.val, hlt⟩) (fun a => by
    match a with
    | ⟨0, _⟩ =>
      show o + y.val = if E = 1 then 0 else o + y.val
      split
      · omega
      · rfl)]
  -- the block's column at `(y, k)` is the lane sum at `y`: the same row-major position, as `k = 0`
  rw [shapeCast_apply _ hc (ix2 y k) (ix1 y) (by
    rw [Shape.rowMajor_val_one, Shape.rowMajor_val_two]
    show y.val = y.val * 1 + k.val
    have := k.isLt
    omega)]
  refine (Ideal.multiReduction_add_single Xb _ hred hφ hacc (ix1 y)).trans ?_
  show _ = Ideal.hostReduceAdd hr X (Ideal.ofBits .f32 0x00000000#32) (ix1 ⟨o + y.val, hlt⟩)
  rw [Ideal.hostReduceAdd_single hr hR, Ideal.ofBits_zero_f32, zero_add]
  -- both are sums over the columns, equal term by term
  show ∑ q : Fin A, Xb (hred.lift (ix1 y) q) = ∑ q : Fin A, X (hR.lift (ix1 ⟨o + y.val, hlt⟩) q)
  refine Finset.sum_congr rfl fun q _ => ?_
  have eb : hred.lift (ix1 y) q = ix2 y q := funext fun a => Fin.ext (by
    match a with
    | ⟨0, _⟩ => rfl
    | ⟨1, _⟩ => rfl)
  have el : hR.lift (ix1 ⟨o + y.val, hlt⟩) q = ix2 ⟨o + y.val, hlt⟩ q := funext fun a => Fin.ext (by
    match a with
    | ⟨0, _⟩ => rfl
    | ⟨1, _⟩ => rfl)
  rw [eb, el]
  exact hX y q hlt

/-- A one-column array spread over the columns. -/
theorem RowsOf.spreadCol {φ φ' : FTy} {C : FVec Ideal ⟨2, ![E, 1]⟩ φ} {Cb : FVec Ideal ⟨2, ![M, 1]⟩ φ'}
    (hC : RowsOf E M 1 o C Cb)
    (h : (⟨2, ![E, 1]⟩ : Shape).BroadcastsInDim ⟨2, ![E, A]⟩ ![0, 1]) (h' : (⟨2, ![M, 1]⟩ : Shape).Broadcasts ⟨2, ![M, A]⟩) :
    RowsOf E M A o (broadcastInDim ⟨2, ![E, A]⟩ ![0, 1] h C) (broadcastTo ⟨2, ![M, A]⟩ Cb h') := by
  intro y k hlt
  -- the long side reads `C` at `(o + y, 0)`, the block side `Cb` at `(y, 0)`
  rw [broadcastInDim_apply ![0, 1] h C (ix2 ⟨o + y.val, hlt⟩ k) (ix2 ⟨o + y.val, hlt⟩ (0 : Fin 1)) (fun a => by
    match a with
    | ⟨0, _⟩ =>
      show o + y.val = if E = 1 then 0 else o + y.val
      split
      · omega
      · rfl
    | ⟨1, _⟩ => simp)]
  rw [broadcastTo_apply Cb h' (ix2 y k) (ix2 y (0 : Fin 1)) (fun a => by
    match a with
    | ⟨0, _⟩ =>
      show y.val = if M = 1 then 0 else y.val
      split
      · have := y.isLt; omega
      · rfl
    | ⟨1, _⟩ => simp)]
  exact hC y 0 hlt

end Cert.Lib.RowBlocks

end
-- ==== Proof.LibLayerRows.lean ====
/-
  One graph-network layer, row by row.

  A layer acts on every node (row) by itself once the neighbours' sum is given: with `h` the node's features and `a`
  the sum of its neighbours' features,

      z  = (1 + ε) · h + a
      u  = max (z · W₁ + b₁) 0 · W₂ + b₂                      (two-layer perceptron)
      LN(u) = (u − μ) · (σ² + δ)^(−1/2) · g + b,   μ = (Σₖ uₖ) / n,   σ² = (Σₖ (uₖ − μ)²) / n      (row normalisation)

  and the layer's output is `max (LN'(LN(u))) 0 + h` (or `LN(u) + h` for the last layer).  Because each step reads only
  the node's own row, a block of consecutive rows of the inputs gives the same block of rows of the output: this module
  carries `RowsOf` (a block holds rows `o … o + M − 1` of a long array) through the perceptron and the normalisation,
  the long side spelt with the host's operations and the block side with a kernel's.
-/
import proofs.«121161_j27779848470880_1_alg».proof.Proof.LibRowNorm

noncomputable section

open scoped BigOperators

namespace Cert.Lib.RowBlocks

open Idealize.ShloMosaic Idealize.ShloMosaic.ValueIdx Cert.Lib.RowOps

variable {E M A o : Nat}

/-- A one-element array reshaped to 1 × 1 holds that element. -/
theorem cast_scalar_apply {α : Type} (e : (⟨0, ![]⟩ : Shape).Idx → α) (h : (⟨0, ![]⟩ : Shape).ShapeCasts ⟨2, ![1, 1]⟩) :
    shapeCast ⟨2, ![1, 1]⟩ e h (ix2 (0 : Fin 1) (0 : Fin 1)) = e ix0 := by
  exact shapeCast_apply e h (ix2 (0 : Fin 1) (0 : Fin 1)) ix0 (by
    have h2 := (Shape.rowMajor (⟨2, ![1, 1]⟩ : Shape) (ix2 (0 : Fin 1) (0 : Fin 1))).isLt
    have h0 := (Shape.rowMajor (⟨0, ![]⟩ : Shape) ix0).isLt
    have e2 : (⟨2, ![1, 1]⟩ : Shape).numel = 1 := by decide
    have e0 : (⟨0, ![]⟩ : Shape).numel = 1 := by decide
    omega)

/-- A vector reshaped to one row holds the vector along that row. -/
theorem cast_row_apply {α : Type} {N : Nat} (b : (⟨1, ![N]⟩ : Shape).Idx → α) (h : (⟨1, ![N]⟩ : Shape).ShapeCasts ⟨2, ![1, N]⟩)
    (q : Fin N) : shapeCast ⟨2, ![1, N]⟩ b h (ix2 (0 : Fin 1) q) = b (ix1 q) := by
  rw [shapeCast_addUnit_apply ![N] b h (ix2 (0 : Fin 1) q)]
  exact congrArg b (funext fun a => by match a with | ⟨0, _⟩ => rfl)

/-- A vector spread over the rows, the block side holding it as one row: two `broadcast_in_dim`s of `b` on the long
    side, a broadcast of the 1 × N block `bb` (through a shape cast to its own shape) on the other. -/
theorem RowsOf.biasRow {N : Nat} (b : (⟨1, ![N]⟩ : Shape).Idx → EReal) (bb : (⟨2, ![1, N]⟩ : Shape).Idx → EReal)
    (hb : ∀ q : Fin N, bb (ix2 (0 : Fin 1) q) = b (ix1 q))
    (h1 : (⟨1, ![N]⟩ : Shape).BroadcastsInDim ⟨2, ![1, N]⟩ ![1])
    (h2 : (⟨2, ![1, N]⟩ : Shape).BroadcastsInDim ⟨2, ![E, N]⟩ ![0, 1])
    (h1' : (⟨2, ![1, N]⟩ : Shape).ShapeCasts ⟨2, ![1, N]⟩) (h2' : (⟨2, ![1, N]⟩ : Shape).Broadcasts ⟨2, ![M, N]⟩) :
    RowsOf E M N o (broadcastInDim ⟨2, ![E, N]⟩ ![0, 1] h2 (broadcastInDim ⟨2, ![1, N]⟩ ![1] h1 b))
      (broadcastTo ⟨2, ![M, N]⟩ (shapeCast ⟨2, ![1, N]⟩ bb h1') h2') := fun y q h => by
  rw [bcastRow_bcast_apply, shapeCast_self]
  rw [broadcastTo_apply _ h2' (ix2 y q) (ix2 (0 : Fin 1) q) (fun a => by
    match a with
    | ⟨0, _⟩ => simp
    | ⟨1, _⟩ =>
      show q.val = if N = 1 then 0 else q.val
      split
      · have := q.isLt; omega
      · rfl)]
  exact hb q

/-- THE PERCEPTRON.  `max (((1 + ε) · h + a) · W₁ + b₁) 0 · W₂ + b₂`: on the long side the host's two plain products,
    on the block two products into zero accumulators of operands narrowed to a shorter float format (which changes no
    extended real); `ε` a scalar on the long side, held in a 1 × 1 block on the other. -/
theorem RowsOf.perceptron {K N : Nat} {H Agg : FVec Ideal ⟨2, ![E, K]⟩ .f32} {Hb Aggb : FVec Ideal ⟨2, ![M, K]⟩ .f32}
    (hH : RowsOf E M K o H Hb) (hA : RowsOf E M K o Agg Aggb)
    (s : (⟨0, ![]⟩ : Shape).Idx → EReal) (sb : (⟨2, ![1, 1]⟩ : Shape).Idx → EReal) (hs : sb (ix2 (0 : Fin 1) (0 : Fin 1)) = s ix0)
    (W1 : FVec Ideal ⟨2, ![K, N]⟩ .f32) (W1b : FVec Ideal ⟨2, ![K, N]⟩ .bf16) (hW1 : ∀ i, W1b i = W1 i)
    (b1 : (⟨1, ![N]⟩ : Shape).Idx → EReal) (b1b : (⟨2, ![1, N]⟩ : Shape).Idx → EReal) (hb1 : ∀ q : Fin N, b1b (ix2 (0 : Fin 1) q) = b1 (ix1 q))
    (W2 : FVec Ideal ⟨2, ![N, N]⟩ .f32) (W2b : FVec Ideal ⟨2, ![N, N]⟩ .bf16) (hW2 : ∀ i, W2b i = W2 i)
    (b2 : (⟨1, ![N]⟩ : Shape).Idx → EReal) (b2b : (⟨2, ![1, N]⟩ : Shape).Idx → EReal) (hb2 : ∀ q : Fin N, b2b (ix2 (0 : Fin 1) q) = b2 (ix1 q))
    (hS : (⟨0, ![]⟩ : Shape).BroadcastsInDim ⟨2, ![E, K]⟩ ![]) (hS' : (⟨2, ![1, 1]⟩ : Shape).Broadcasts ⟨2, ![M, K]⟩)
    (hZ : (⟨0, ![]⟩ : Shape).BroadcastsInDim ⟨2, ![E, N]⟩ ![])
    (h1 : (⟨1, ![N]⟩ : Shape).BroadcastsInDim ⟨2, ![1, N]⟩ ![1]) (h2 : (⟨2, ![1, N]⟩ : Shape).BroadcastsInDim ⟨2, ![E, N]⟩ ![0, 1])
    (h1' : (⟨2, ![1, N]⟩ : Shape).ShapeCasts ⟨2, ![1, N]⟩) (h2' : (⟨2, ![1, N]⟩ : Shape).Broadcasts ⟨2, ![M, N]⟩)
    (ht : FTy.bf16.bits < FTy.f32.bits) :
    RowsOf E M N o
      (addf (FloatOps.dotGeneral (DotDims.plain E N N) none .single
          (maximumf (addf (FloatOps.dotGeneral (DotDims.plain E K N) none .single
              (addf (mulf (broadcastInDim ⟨2, ![E, K]⟩ ![] hS s) H) Agg) W1)
              (broadcastInDim ⟨2, ![E, N]⟩ ![0, 1] h2 (broadcastInDim ⟨2, ![1, N]⟩ ![1] h1 b1)))
            (broadcastInDim ⟨2, ![E, N]⟩ ![] hZ (constant (F := Ideal) ⟨0, ![]⟩ .f32 0x00000000#32))) W2)
        (broadcastInDim ⟨2, ![E, N]⟩ ![0, 1] h2 (broadcastInDim ⟨2, ![1, N]⟩ ![1] h1 b2)))
      (addf (FloatOps.matmul (DotDims.plain M N N) none
          (Idealize.ShloMosaic.truncf .bf16 (maximumf (addf (FloatOps.matmul (DotDims.plain M K N) none
              (Idealize.ShloMosaic.truncf .bf16 (addf (mulf (broadcastTo ⟨2, ![M, K]⟩ sb hS') Hb) Aggb) ht) W1b (constant ⟨2, ![M, N]⟩ .f32 0x00000000#32))
              (broadcastTo ⟨2, ![M, N]⟩ (shapeCast ⟨2, ![1, N]⟩ b1b h1') h2'))
            (broadcast ⟨2, ![M, N]⟩ (Scalar.ofBits (F := Ideal) .f32 0x00000000#32))) ht) W2b (constant ⟨2, ![M, N]⟩ .f32 0x00000000#32))
        (broadcastTo ⟨2, ![M, N]⟩ (shapeCast ⟨2, ![1, N]⟩ b2b h1') h2')) := by
  have hz := ((RowsOf.scalar s sb hs hS hS').mul hH).add hA
  have hu := (((hz.truncf ht).dot W1 W1b hW1 none none .single).add (RowsOf.biasRow b1 b1b hb1 h1 h2 h1' h2')).max (RowsOf.splat 0x00000000#32 hZ)
  exact ((hu.truncf ht).dot W2 W2b hW2 none none .single).add (RowsOf.biasRow b2 b2b hb2 h1 h2 h1' h2')

/-- THE ROW NORMALISATION.  `(u − μ) · (σ² + δ)^(−1/2) · g + b` with `μ` the mean of the row and `σ²` the mean of the
    squared deviations, the divisor `n` and the offset `δ` given by their words: on the long side the host's reductions,
    quotients and reciprocal square root, on the block the lane reductions and a kernel's. -/
theorem RowsOf.rowNorm {Z : FVec Ideal ⟨2, ![E, A]⟩ .f32} {Zb : FVec Ideal ⟨2, ![M, A]⟩ .f32} (hZ : RowsOf E M A o Z Zb)
    (g : (⟨1, ![A]⟩ : Shape).Idx → EReal) (gb : (⟨2, ![1, A]⟩ : Shape).Idx → EReal) (hg : ∀ q : Fin A, gb (ix2 (0 : Fin 1) q) = g (ix1 q))
    (b : (⟨1, ![A]⟩ : Shape).Idx → EReal) (bb : (⟨2, ![1, A]⟩ : Shape).Idx → EReal) (hb : ∀ q : Fin A, bb (ix2 (0 : Fin 1) q) = b (ix1 q))
    (wn wd : BitVec 32)
    (hr : (⟨2, ![E, A]⟩ : Shape).ReducesTo [1] ⟨1, ![E]⟩) (hu : 0 < (⟨0, ![]⟩ : Shape).numel)
    (hc0 : (⟨1, ![E]⟩ : Shape).BroadcastsInDim ⟨2, ![E, 1]⟩ ![0])
    (hS1 : (⟨0, ![]⟩ : Shape).BroadcastsInDim ⟨2, ![E, 1]⟩ ![])
    (hsp : (⟨2, ![E, 1]⟩ : Shape).BroadcastsInDim ⟨2, ![E, A]⟩ ![0, 1])
    (h1 : (⟨1, ![A]⟩ : Shape).BroadcastsInDim ⟨2, ![1, A]⟩ ![1]) (h2 : (⟨2, ![1, A]⟩ : Shape).BroadcastsInDim ⟨2, ![E, A]⟩ ![0, 1])
    (hred : (⟨2, ![M, A]⟩ : Shape).Reduces [1] ⟨1, ![M]⟩) (hφ : FKind.Formats .f32)
    (hacc : (0x00000000#32 : BitVec 32) = FKind.add.neutral .f32 hφ)
    (hcc : (⟨1, ![M]⟩ : Shape).ShapeCasts ⟨2, ![M, 1]⟩)
    (hsp' : (⟨2, ![M, 1]⟩ : Shape).Broadcasts ⟨2, ![M, A]⟩)
    (h1' : (⟨2, ![1, A]⟩ : Shape).ShapeCasts ⟨2, ![1, A]⟩) (h2' : (⟨2, ![1, A]⟩ : Shape).Broadcasts ⟨2, ![M, A]⟩) :
    RowsOf E M A o
      (addf (mulf (mulf
          (subf Z (broadcastInDim ⟨2, ![E, A]⟩ ![0, 1] hsp
            (Host.divf (broadcastInDim ⟨2, ![E, 1]⟩ ![0] hc0 (Host.reduceAdd Z (constant (F := Ideal) ⟨0, ![]⟩ .f32 0x00000000#32) hr hu))
              (broadcastInDim ⟨2, ![E, 1]⟩ ![] hS1 (constant (F := Ideal) ⟨0, ![]⟩ .f32 wn)))))
          (broadcastInDim ⟨2, ![E, A]⟩ ![0, 1] hsp (Host.rsqrt (addf
            (Host.divf (broadcastInDim ⟨2, ![E, 1]⟩ ![0] hc0 (Host.reduceAdd
                (mulf
                  (subf Z (broadcastInDim ⟨2, ![E, A]⟩ ![0, 1] hsp
                    (Host.divf (broadcastInDim ⟨2, ![E, 1]⟩ ![0] hc0 (Host.reduceAdd Z (constant (F := Ideal) ⟨0, ![]⟩ .f32 0x00000000#32) hr hu))
                      (broadcastInDim ⟨2, ![E, 1]⟩ ![] hS1 (constant (F := Ideal) ⟨0, ![]⟩ .f32 wn)))))
                  (subf Z (broadcastInDim ⟨2, ![E, A]⟩ ![0, 1] hsp
                    (Host.divf (broadcastInDim ⟨2, ![E, 1]⟩ ![0] hc0 (Host.reduceAdd Z (constant (F := Ideal) ⟨0, ![]⟩ .f32 0x00000000#32) hr hu))
                      (broadcastInDim ⟨2, ![E, 1]⟩ ![] hS1 (constant (F := Ideal) ⟨0, ![]⟩ .f32 wn))))))
                (constant (F := Ideal) ⟨0, ![]⟩ .f32 0x00000000#32) hr hu))
              (broadcastInDim ⟨2, ![E, 1]⟩ ![] hS1 (constant (F := Ideal) ⟨0, ![]⟩ .f32 wn)))
            (broadcastInDim ⟨2, ![E, 1]⟩ ![] hS1 (constant (F := Ideal) ⟨0, ![]⟩ .f32 wd))))))
          (broadcastInDim ⟨2, ![E, A]⟩ ![0, 1] h2 (broadcastInDim ⟨2, ![1, A]⟩ ![1] h1 g)))
        (broadcastInDim ⟨2, ![E, A]⟩ ![0, 1] h2 (broadcastInDim ⟨2, ![1, A]⟩ ![1] h1 b)))
      (addf (mulf (mulf
          (subf Zb (broadcastTo ⟨2, ![M, A]⟩
            (divf (shapeCast ⟨2, ![M, 1]⟩ (multiReduction .add [1] ⟨1, ![M]⟩ Zb 0x00000000#32 hred hφ hacc) hcc)
              (broadcast ⟨2, ![M, 1]⟩ (Scalar.ofBits (F := Ideal) .f32 wn))) hsp'))
          (broadcastTo ⟨2, ![M, A]⟩ (Idealize.ShloMosaic.rsqrt (addf
            (divf (shapeCast ⟨2, ![M, 1]⟩ (multiReduction .add [1] ⟨1, ![M]⟩
                (mulf
                  (subf Zb (broadcastTo ⟨2, ![M, A]⟩
                    (divf (shapeCast ⟨2, ![M, 1]⟩ (multiReduction .add [1] ⟨1, ![M]⟩ Zb 0x00000000#32 hred hφ hacc) hcc)
                      (broadcast ⟨2, ![M, 1]⟩ (Scalar.ofBits (F := Ideal) .f32 wn))) hsp'))
                  (subf Zb (broadcastTo ⟨2, ![M, A]⟩
                    (divf (shapeCast ⟨2, ![M, 1]⟩ (multiReduction .add [1] ⟨1, ![M]⟩ Zb 0x00000000#32 hred hφ hacc) hcc)
                      (broadcast ⟨2, ![M, 1]⟩ (Scalar.ofBits (F := Ideal) .f32 wn))) hsp')))
                0x00000000#32 hred hφ hacc) hcc)
              (broadcast ⟨2, ![M, 1]⟩ (Scalar.ofBits (F := Ideal) .f32 wn)))
            (broadcast ⟨2, ![M, 1]⟩ (Scalar.ofBits (F := Ideal) .f32 wd)))) hsp'))
          (broadcastTo ⟨2, ![M, A]⟩ (shapeCast ⟨2, ![1, A]⟩ gb h1') h2'))
        (broadcastTo ⟨2, ![M, A]⟩ (shapeCast ⟨2, ![1, A]⟩ bb h1') h2')) := by
  have hmean : RowsOf E M 1 o _ _ :=
    RowsOf.hostDiv (φ := .f32) (φ' := .f32) (hZ.rowSum hr hu hc0 hred hφ hacc hcc) (RowsOf.splat (E := E) (M := M) (A := 1) (o := o) wn hS1)
  have hdev : RowsOf E M A o _ _ := RowsOf.sub (φ := .f32) (φ' := .f32) hZ (RowsOf.spreadCol (φ := .f32) (φ' := .f32) hmean hsp hsp')
  have hvar : RowsOf E M 1 o _ _ :=
    RowsOf.hostDiv (φ := .f32) (φ' := .f32) ((RowsOf.mul (φ := .f32) (φ' := .f32) hdev hdev).rowSum hr hu hc0 hred hφ hacc hcc)
      (RowsOf.splat (E := E) (M := M) (A := 1) (o := o) wn hS1)
  have hinv : RowsOf E M 1 o _ _ :=
    RowsOf.rsqrt (φ := .f32) (φ' := .f32) (RowsOf.add (φ := .f32) (φ' := .f32) hvar (RowsOf.splat (E := E) (M := M) (A := 1) (o := o) wd hS1))
  exact RowsOf.add (φ := .f32) (φ' := .f32)
    (RowsOf.mul (φ := .f32) (φ' := .f32)
      (RowsOf.mul (φ := .f32) (φ' := .f32) hdev (RowsOf.spreadCol (φ := .f32) (φ' := .f32) hinv hsp hsp'))
      (RowsOf.biasRow g gb hg h1 h2 h1' h2'))
    (RowsOf.biasRow b bb hb h1 h2 h1' h2')

end Cert.Lib.RowBlocks

end
-- ==== Proof.Entries.lean ====
/-
  What the three regions find on entry.

  The kernel program's host operations between its regions slice the stacked parameters, reshape them to the one-row
  and 1 × 1 blocks the kernels take, narrow the two weight matrices to a shorter float format (which changes no
  extended real), and compute the neighbours' sums of the current features along the edge list.  Read off the run's
  boundary contents, each window's array on entry to region `k` is therefore: the current features; their
  neighbours' sum (`nbrSum`); and layer `k`'s parameters as the reference slices them, up to one more reshape.
  "The current features" are the launch features for region 0 and the previous region's output afterwards; nothing
  between the regions writes an argument or the edge list's two index vectors, so those are read back to the launch.
-/
import proofs.«121161_j27779848470880_1_alg».proof.Proof.Gen.KernelIdeal.Frame
import proofs.«121161_j27779848470880_1_alg».proof.Proof.LayerSpec
import proofs.«121161_j27779848470880_1_alg».proof.Proof.LibLayerRows
import Idealize.ShloMosaic.Lib.StableHlo.Run

set_option maxRecDepth 16384

noncomputable section

namespace Cert.KernelIdeal.Hand

open Cert.KernelIdeal Cert.KernelIdeal.Gen
open Cert.ReferenceIdeal.Spec
open Cert.ReferenceIdeal.Value (res_main_v1 res_main_v3 res_main_v96 res_main_v189)
open Idealize.ShloMosaic Idealize.ShloMosaic.TcCoe Idealize.ShloMosaic.ValueIdx Idealize.SL.Sem Idealize.ShloMosaic.StableHlo
open Cert.Lib.RowBlocks

variable (m : (ℓ : Loc nD τ sig) → Buf (Elt Ideal) ℓ) (ρ : Dev nD → PrngReg) (c : Dev nD)
variable (L : Valuation Cert.ReferenceIdeal.τ Cert.ReferenceIdeal.sig (Elt Ideal))

/-- The reference's eleven arguments are the kernel's. -/
structure Agree : Prop where
  a0 : L (Proc.devRef .tc Cert.ReferenceIdeal.main_arg0) = m ((c : Thread nD τ).loc main_arg0)
  a1 : L (Proc.devRef .tc Cert.ReferenceIdeal.main_arg1) = m ((c : Thread nD τ).loc main_arg1)
  a2 : L (Proc.devRef .tc Cert.ReferenceIdeal.main_arg2) = m ((c : Thread nD τ).loc main_arg2)
  a3 : L (Proc.devRef .tc Cert.ReferenceIdeal.main_arg3) = m ((c : Thread nD τ).loc main_arg3)
  a4 : L (Proc.devRef .tc Cert.ReferenceIdeal.main_arg4) = m ((c : Thread nD τ).loc main_arg4)
  a5 : L (Proc.devRef .tc Cert.ReferenceIdeal.main_arg5) = m ((c : Thread nD τ).loc main_arg5)
  a6 : L (Proc.devRef .tc Cert.ReferenceIdeal.main_arg6) = m ((c : Thread nD τ).loc main_arg6)
  a7 : L (Proc.devRef .tc Cert.ReferenceIdeal.main_arg7) = m ((c : Thread nD τ).loc main_arg7)
  a8 : L (Proc.devRef .tc Cert.ReferenceIdeal.main_arg8) = m ((c : Thread nD τ).loc main_arg8)
  a9 : L (Proc.devRef .tc Cert.ReferenceIdeal.main_arg9) = m ((c : Thread nD τ).loc main_arg9)
  a10 : L (Proc.devRef .tc Cert.ReferenceIdeal.main_arg10) = m ((c : Thread nD τ).loc main_arg10)

variable {m c L}

/-! ## The boundaries' contents at the buffers nothing writes between the regions -/

set_option maxHeartbeats 2000000 in
theorem W1_v1 (h : Agree m c L) : W1 m ρ c (Proc.devRef .tc main_v1) = res_main_v1 L := by
  show StableHlo.after hostOps0 (W0 m ρ c) (no_index (Proc.devRef .tc main_v1)) = _
  simp only [hostOps0]
  after_results_simp
  rw [show W0 m ρ c (Proc.devRef .tc main_arg1) = L (Proc.devRef .tc Cert.ReferenceIdeal.main_arg1) from h.a1.symm]
  rfl

set_option maxHeartbeats 2000000 in
theorem W1_v3 (h : Agree m c L) : W1 m ρ c (Proc.devRef .tc main_v3) = res_main_v3 L := by
  show StableHlo.after hostOps0 (W0 m ρ c) (no_index (Proc.devRef .tc main_v3)) = _
  simp only [hostOps0]
  after_results_simp
  rw [show W0 m ρ c (Proc.devRef .tc main_arg1) = L (Proc.devRef .tc Cert.ReferenceIdeal.main_arg1) from h.a1.symm]
  rfl

set_option maxHeartbeats 2000000 in
theorem W1_arg2 (h : Agree m c L) : W1 m ρ c (Proc.devRef .tc main_arg2) = L (Proc.devRef .tc Cert.ReferenceIdeal.main_arg2) := by
  show StableHlo.after hostOps0 (W0 m ρ c) (no_index (Proc.devRef .tc main_arg2)) = _
  simp only [hostOps0]
  after_results_simp
  exact h.a2.symm

set_option maxHeartbeats 2000000 in
theorem W1_arg3 (h : Agree m c L) : W1 m ρ c (Proc.devRef .tc main_arg3) = L (Proc.devRef .tc Cert.ReferenceIdeal.main_arg3) := by
  show StableHlo.after hostOps0 (W0 m ρ c) (no_index (Proc.devRef .tc main_arg3)) = _
  simp only [hostOps0]
  after_results_simp
  exact h.a3.symm

set_option maxHeartbeats 2000000 in
theorem W1_arg4 (h : Agree m c L) : W1 m ρ c (Proc.devRef .tc main_arg4) = L (Proc.devRef .tc Cert.ReferenceIdeal.main_arg4) := by
  show StableHlo.after hostOps0 (W0 m ρ c) (no_index (Proc.devRef .tc main_arg4)) = _
  simp only [hostOps0]
  after_results_simp
  exact h.a4.symm

set_option maxHeartbeats 2000000 in
theorem W1_arg5 (h : Agree m c L) : W1 m ρ c (Proc.devRef .tc main_arg5) = L (Proc.devRef .tc Cert.ReferenceIdeal.main_arg5) := by
  show StableHlo.after hostOps0 (W0 m ρ c) (no_index (Proc.devRef .tc main_arg5)) = _
  simp only [hostOps0]
  after_results_simp
  exact h.a5.symm

set_option maxHeartbeats 2000000 in
theorem W1_arg6 (h : Agree m c L) : W1 m ρ c (Proc.devRef .tc main_arg6) = L (Proc.devRef .tc Cert.ReferenceIdeal.main_arg6) := by
  show StableHlo.after hostOps0 (W0 m ρ c) (no_index (Proc.devRef .tc main_arg6)) = _
  simp only [hostOps0]
  after_results_simp
  exact h.a6.symm

set_option maxHeartbeats 2000000 in
theorem W1_arg7 (h : Agree m c L) : W1 m ρ c (Proc.devRef .tc main_arg7) = L (Proc.devRef .tc Cert.ReferenceIdeal.main_arg7) := by
  show StableHlo.after hostOps0 (W0 m ρ c) (no_index (Proc.devRef .tc main_arg7)) = _
  simp only [hostOps0]
  after_results_simp
  exact h.a7.symm

set_option maxHeartbeats 2000000 in
theorem W1_arg8 (h : Agree m c L) : W1 m ρ c (Proc.devRef .tc main_arg8) = L (Proc.devRef .tc Cert.ReferenceIdeal.main_arg8) := by
  show StableHlo.after hostOps0 (W0 m ρ c) (no_index (Proc.devRef .tc main_arg8)) = _
  simp only [hostOps0]
  after_results_simp
  exact h.a8.symm

set_option maxHeartbeats 2000000 in
theorem W1_arg9 (h : Agree m c L) : W1 m ρ c (Proc.devRef .tc main_arg9) = L (Proc.devRef .tc Cert.ReferenceIdeal.main_arg9) := by
  show StableHlo.after hostOps0 (W0 m ρ c) (no_index (Proc.devRef .tc main_arg9)) = _
  simp only [hostOps0]
  after_results_simp
  exact h.a9.symm

set_option maxHeartbeats 2000000 in
theorem W1_arg10 (h : Agree m c L) : W1 m ρ c (Proc.devRef .tc main_arg10) = L (Proc.devRef .tc Cert.ReferenceIdeal.main_arg10) := by
  show StableHlo.after hostOps0 (W0 m ρ c) (no_index (Proc.devRef .tc main_arg10)) = _
  simp only [hostOps0]
  after_results_simp
  exact h.a10.symm

theorem W2_v1 (h : Agree m c L) : W2 m ρ c (Proc.devRef .tc main_v1) = res_main_v1 L :=
  (W2_of_ne m ρ c main_v1 (by decide)).trans (W1_v1 ρ h)

theorem W2_v3 (h : Agree m c L) : W2 m ρ c (Proc.devRef .tc main_v3) = res_main_v3 L :=
  (W2_of_ne m ρ c main_v3 (by decide)).trans (W1_v3 ρ h)

theorem W2_arg2 (h : Agree m c L) : W2 m ρ c (Proc.devRef .tc main_arg2) = L (Proc.devRef .tc Cert.ReferenceIdeal.main_arg2) :=
  (W2_of_ne m ρ c main_arg2 (by decide)).trans (W1_arg2 ρ h)

theorem W2_arg3 (h : Agree m c L) : W2 m ρ c (Proc.devRef .tc main_arg3) = L (Proc.devRef .tc Cert.ReferenceIdeal.main_arg3) :=
  (W2_of_ne m ρ c main_arg3 (by decide)).trans (W1_arg3 ρ h)

theorem W2_arg4 (h : Agree m c L) : W2 m ρ c (Proc.devRef .tc main_arg4) = L (Proc.devRef .tc Cert.ReferenceIdeal.main_arg4) :=
  (W2_of_ne m ρ c main_arg4 (by decide)).trans (W1_arg4 ρ h)

theorem W2_arg5 (h : Agree m c L) : W2 m ρ c (Proc.devRef .tc main_arg5) = L (Proc.devRef .tc Cert.ReferenceIdeal.main_arg5) :=
  (W2_of_ne m ρ c main_arg5 (by decide)).trans (W1_arg5 ρ h)

theorem W2_arg6 (h : Agree m c L) : W2 m ρ c (Proc.devRef .tc main_arg6) = L (Proc.devRef .tc Cert.ReferenceIdeal.main_arg6) :=
  (W2_of_ne m ρ c main_arg6 (by decide)).trans (W1_arg6 ρ h)

theorem W2_arg7 (h : Agree m c L) : W2 m ρ c (Proc.devRef .tc main_arg7) = L (Proc.devRef .tc Cert.ReferenceIdeal.main_arg7) :=
  (W2_of_ne m ρ c main_arg7 (by decide)).trans (W1_arg7 ρ h)

theorem W2_arg8 (h : Agree m c L) : W2 m ρ c (Proc.devRef .tc main_arg8) = L (Proc.devRef .tc Cert.ReferenceIdeal.main_arg8) :=
  (W2_of_ne m ρ c main_arg8 (by decide)).trans (W1_arg8 ρ h)

theorem W2_arg9 (h : Agree m c L) : W2 m ρ c (Proc.devRef .tc main_arg9) = L (Proc.devRef .tc Cert.ReferenceIdeal.main_arg9) :=
  (W2_of_ne m ρ c main_arg9 (by decide)).trans (W1_arg9 ρ h)

theorem W2_arg10 (h : Agree m c L) : W2 m ρ c (Proc.devRef .tc main_arg10) = L (Proc.devRef .tc Cert.ReferenceIdeal.main_arg10) :=
  (W2_of_ne m ρ c main_arg10 (by decide)).trans (W1_arg10 ρ h)

set_option maxHeartbeats 2000000 in
theorem W3_v1 (h : Agree m c L) : W3 m ρ c (Proc.devRef .tc main_v1) = res_main_v1 L := by
  show StableHlo.after hostOps1 (W2 m ρ c) (no_index (Proc.devRef .tc main_v1)) = _
  simp only [hostOps1]
  after_results_simp
  exact W2_v1 ρ h

theorem W4_v1 (h : Agree m c L) : W4 m ρ c (Proc.devRef .tc main_v1) = res_main_v1 L :=
  (W4_of_ne m ρ c main_v1 (by decide)).trans (W3_v1 ρ h)

set_option maxHeartbeats 2000000 in
theorem W3_v3 (h : Agree m c L) : W3 m ρ c (Proc.devRef .tc main_v3) = res_main_v3 L := by
  show StableHlo.after hostOps1 (W2 m ρ c) (no_index (Proc.devRef .tc main_v3)) = _
  simp only [hostOps1]
  after_results_simp
  exact W2_v3 ρ h

theorem W4_v3 (h : Agree m c L) : W4 m ρ c (Proc.devRef .tc main_v3) = res_main_v3 L :=
  (W4_of_ne m ρ c main_v3 (by decide)).trans (W3_v3 ρ h)

set_option maxHeartbeats 2000000 in
theorem W3_arg2 (h : Agree m c L) : W3 m ρ c (Proc.devRef .tc main_arg2) = L (Proc.devRef .tc Cert.ReferenceIdeal.main_arg2) := by
  show StableHlo.after hostOps1 (W2 m ρ c) (no_index (Proc.devRef .tc main_arg2)) = _
  simp only [hostOps1]
  after_results_simp
  exact W2_arg2 ρ h

theorem W4_arg2 (h : Agree m c L) : W4 m ρ c (Proc.devRef .tc main_arg2) = L (Proc.devRef .tc Cert.ReferenceIdeal.main_arg2) :=
  (W4_of_ne m ρ c main_arg2 (by decide)).trans (W3_arg2 ρ h)

set_option maxHeartbeats 2000000 in
theorem W3_arg3 (h : Agree m c L) : W3 m ρ c (Proc.devRef .tc main_arg3) = L (Proc.devRef .tc Cert.ReferenceIdeal.main_arg3) := by
  show StableHlo.after hostOps1 (W2 m ρ c) (no_index (Proc.devRef .tc main_arg3)) = _
  simp only [hostOps1]
  after_results_simp
  exact W2_arg3 ρ h

theorem W4_arg3 (h : Agree m c L) : W4 m ρ c (Proc.devRef .tc main_arg3) = L (Proc.devRef .tc Cert.ReferenceIdeal.main_arg3) :=
  (W4_of_ne m ρ c main_arg3 (by decide)).trans (W3_arg3 ρ h)

set_option maxHeartbeats 2000000 in
theorem W3_arg4 (h : Agree m c L) : W3 m ρ c (Proc.devRef .tc main_arg4) = L (Proc.devRef .tc Cert.ReferenceIdeal.main_arg4) := by
  show StableHlo.after hostOps1 (W2 m ρ c) (no_index (Proc.devRef .tc main_arg4)) = _
  simp only [hostOps1]
  after_results_simp
  exact W2_arg4 ρ h

theorem W4_arg4 (h : Agree m c L) : W4 m ρ c (Proc.devRef .tc main_arg4) = L (Proc.devRef .tc Cert.ReferenceIdeal.main_arg4) :=
  (W4_of_ne m ρ c main_arg4 (by decide)).trans (W3_arg4 ρ h)

set_option maxHeartbeats 2000000 in
theorem W3_arg5 (h : Agree m c L) : W3 m ρ c (Proc.devRef .tc main_arg5) = L (Proc.devRef .tc Cert.ReferenceIdeal.main_arg5) := by
  show StableHlo.after hostOps1 (W2 m ρ c) (no_index (Proc.devRef .tc main_arg5)) = _
  simp only [hostOps1]
  after_results_simp
  exact W2_arg5 ρ h

theorem W4_arg5 (h : Agree m c L) : W4 m ρ c (Proc.devRef .tc main_arg5) = L (Proc.devRef .tc Cert.ReferenceIdeal.main_arg5) :=
  (W4_of_ne m ρ c main_arg5 (by decide)).trans (W3_arg5 ρ h)

set_option maxHeartbeats 2000000 in
theorem W3_arg6 (h : Agree m c L) : W3 m ρ c (Proc.devRef .tc main_arg6) = L (Proc.devRef .tc Cert.ReferenceIdeal.main_arg6) := by
  show StableHlo.after hostOps1 (W2 m ρ c) (no_index (Proc.devRef .tc main_arg6)) = _
  simp only [hostOps1]
  after_results_simp
  exact W2_arg6 ρ h

theorem W4_arg6 (h : Agree m c L) : W4 m ρ c (Proc.devRef .tc main_arg6) = L (Proc.devRef .tc Cert.ReferenceIdeal.main_arg6) :=
  (W4_of_ne m ρ c main_arg6 (by decide)).trans (W3_arg6 ρ h)

set_option maxHeartbeats 2000000 in
theorem W3_arg7 (h : Agree m c L) : W3 m ρ c (Proc.devRef .tc main_arg7) = L (Proc.devRef .tc Cert.ReferenceIdeal.main_arg7) := by
  show StableHlo.after hostOps1 (W2 m ρ c) (no_index (Proc.devRef .tc main_arg7)) = _
  simp only [hostOps1]
  after_results_simp
  exact W2_arg7 ρ h

theorem W4_arg7 (h : Agree m c L) : W4 m ρ c (Proc.devRef .tc main_arg7) = L (Proc.devRef .tc Cert.ReferenceIdeal.main_arg7) :=
  (W4_of_ne m ρ c main_arg7 (by decide)).trans (W3_arg7 ρ h)

set_option maxHeartbeats 2000000 in
theorem W3_arg8 (h : Agree m c L) : W3 m ρ c (Proc.devRef .tc main_arg8) = L (Proc.devRef .tc Cert.ReferenceIdeal.main_arg8) := by
  show StableHlo.after hostOps1 (W2 m ρ c) (no_index (Proc.devRef .tc main_arg8)) = _
  simp only [hostOps1]
  after_results_simp
  exact W2_arg8 ρ h

theorem W4_arg8 (h : Agree m c L) : W4 m ρ c (Proc.devRef .tc main_arg8) = L (Proc.devRef .tc Cert.ReferenceIdeal.main_arg8) :=
  (W4_of_ne m ρ c main_arg8 (by decide)).trans (W3_arg8 ρ h)

/-! ## Region 0 on entry -/

set_option maxHeartbeats 2000000 in
theorem E0_0 (h : Agree m c L) : (V1 m ρ c main_arg0 : Arr) = L (Proc.devRef .tc Cert.ReferenceIdeal.main_arg0) := by
  show StableHlo.after hostOps0 (W0 m ρ c) (no_index (Proc.devRef .tc main_arg0)) = _
  simp only [hostOps0]
  after_results_simp
  exact h.a0.symm

set_option maxHeartbeats 2000000 in
theorem E0_1 (h : Agree m c L) : (V1 m ρ c main_v15 : Arr) = nbrSum L (L (Proc.devRef .tc Cert.ReferenceIdeal.main_arg0)) := by
  show StableHlo.after hostOps0 (W0 m ρ c) (no_index (Proc.devRef .tc main_v15)) = _
  simp only [hostOps0]
  after_results_simp
  rw [show W0 m ρ c (Proc.devRef .tc main_arg1) = L (Proc.devRef .tc Cert.ReferenceIdeal.main_arg1) from h.a1.symm,
    show W0 m ρ c (Proc.devRef .tc main_arg0) = L (Proc.devRef .tc Cert.ReferenceIdeal.main_arg0) from h.a0.symm]
  rfl

set_option maxHeartbeats 2000000 in
theorem E0_2 (h : Agree m c L) : (V1 m ρ c main_v18 : S1x1.Idx → EReal) (ix2 (0 : Fin 1) (0 : Fin 1)) = eps0 L ix0 := by
  show StableHlo.after hostOps0 (W0 m ρ c) (no_index (Proc.devRef .tc main_v18)) _ = _
  simp only [hostOps0]
  after_results_simp
  rw [show W0 m ρ c (Proc.devRef .tc main_arg2) = L (Proc.devRef .tc Cert.ReferenceIdeal.main_arg2) from h.a2.symm]
  exact cast_scalar_apply (eps0 L) shapeCasts_S_S1x1

set_option maxHeartbeats 2000000 in
theorem E0_3 (h : Agree m c L) (i : S128x128.Idx) : (V1 m ρ c main_v21 : S128x128.Idx → EReal) i = w1_0 L i := by
  show StableHlo.after hostOps0 (W0 m ρ c) (no_index (Proc.devRef .tc main_v21)) _ = _
  simp only [hostOps0]
  after_results_simp
  rw [show W0 m ρ c (Proc.devRef .tc main_arg3) = L (Proc.devRef .tc Cert.ReferenceIdeal.main_arg3) from h.a3.symm]
  rfl

set_option maxHeartbeats 2000000 in
theorem E0_4 (h : Agree m c L) (q : Fin 128) : (V1 m ρ c main_v24 : S1x128.Idx → EReal) (ix2 (0 : Fin 1) q) = b1_0 L (ix1 q) := by
  show StableHlo.after hostOps0 (W0 m ρ c) (no_index (Proc.devRef .tc main_v24)) _ = _
  simp only [hostOps0]
  after_results_simp
  rw [show W0 m ρ c (Proc.devRef .tc main_arg4) = L (Proc.devRef .tc Cert.ReferenceIdeal.main_arg4) from h.a4.symm]
  exact cast_row_apply (b1_0 L) shapeCasts_S128_S1x128 q

set_option maxHeartbeats 2000000 in
theorem E0_5 (h : Agree m c L) (i : S128x128.Idx) : (V1 m ρ c main_v27 : S128x128.Idx → EReal) i = w2_0 L i := by
  show StableHlo.after hostOps0 (W0 m ρ c) (no_index (Proc.devRef .tc main_v27)) _ = _
  simp only [hostOps0]
  after_results_simp
  rw [show W0 m ρ c (Proc.devRef .tc main_arg5) = L (Proc.devRef .tc Cert.ReferenceIdeal.main_arg5) from h.a5.symm]
  rfl

set_option maxHeartbeats 2000000 in
theorem E0_6 (h : Agree m c L) (q : Fin 128) : (V1 m ρ c main_v30 : S1x128.Idx → EReal) (ix2 (0 : Fin 1) q) = b2_0 L (ix1 q) := by
  show StableHlo.after hostOps0 (W0 m ρ c) (no_index (Proc.devRef .tc main_v30)) _ = _
  simp only [hostOps0]
  after_results_simp
  rw [show W0 m ρ c (Proc.devRef .tc main_arg6) = L (Proc.devRef .tc Cert.ReferenceIdeal.main_arg6) from h.a6.symm]
  exact cast_row_apply (b2_0 L) shapeCasts_S128_S1x128 q

set_option maxHeartbeats 2000000 in
theorem E0_7 (h : Agree m c L) (q : Fin 128) : (V1 m ρ c main_v33 : S1x128.Idx → EReal) (ix2 (0 : Fin 1) q) = g_0 L (ix1 q) := by
  show StableHlo.after hostOps0 (W0 m ρ c) (no_index (Proc.devRef .tc main_v33)) _ = _
  simp only [hostOps0]
  after_results_simp
  rw [show W0 m ρ c (Proc.devRef .tc main_arg7) = L (Proc.devRef .tc Cert.ReferenceIdeal.main_arg7) from h.a7.symm]
  exact cast_row_apply (g_0 L) shapeCasts_S128_S1x128 q

set_option maxHeartbeats 2000000 in
theorem E0_8 (h : Agree m c L) (q : Fin 128) : (V1 m ρ c main_v36 : S1x128.Idx → EReal) (ix2 (0 : Fin 1) q) = c_0 L (ix1 q) := by
  show StableHlo.after hostOps0 (W0 m ρ c) (no_index (Proc.devRef .tc main_v36)) _ = _
  simp only [hostOps0]
  after_results_simp
  rw [show W0 m ρ c (Proc.devRef .tc main_arg8) = L (Proc.devRef .tc Cert.ReferenceIdeal.main_arg8) from h.a8.symm]
  exact cast_row_apply (c_0 L) shapeCasts_S128_S1x128 q

set_option maxHeartbeats 2000000 in
theorem E0_9 (h : Agree m c L) (q : Fin 128) : (V1 m ρ c main_v39 : S1x128.Idx → EReal) (ix2 (0 : Fin 1) q) = gs_0 L (ix1 q) := by
  show StableHlo.after hostOps0 (W0 m ρ c) (no_index (Proc.devRef .tc main_v39)) _ = _
  simp only [hostOps0]
  after_results_simp
  rw [show W0 m ρ c (Proc.devRef .tc main_arg9) = L (Proc.devRef .tc Cert.ReferenceIdeal.main_arg9) from h.a9.symm]
  exact cast_row_apply (gs_0 L) shapeCasts_S128_S1x128 q

set_option maxHeartbeats 2000000 in
theorem E0_10 (h : Agree m c L) (q : Fin 128) : (V1 m ρ c main_v42 : S1x128.Idx → EReal) (ix2 (0 : Fin 1) q) = cs_0 L (ix1 q) := by
  show StableHlo.after hostOps0 (W0 m ρ c) (no_index (Proc.devRef .tc main_v42)) _ = _
  simp only [hostOps0]
  after_results_simp
  rw [show W0 m ρ c (Proc.devRef .tc main_arg10) = L (Proc.devRef .tc Cert.ReferenceIdeal.main_arg10) from h.a10.symm]
  exact cast_row_apply (cs_0 L) shapeCasts_S128_S1x128 q

/-! ## Region 1 on entry -/

set_option maxHeartbeats 2000000 in
theorem E1_0 (h : Agree m c L) (hS : W2 m ρ c (Proc.devRef .tc main_v43) = res_main_v96 L) : (V3 m ρ c main_v43 : Arr) = res_main_v96 L := by
  show StableHlo.after hostOps1 (W2 m ρ c) (no_index (Proc.devRef .tc main_v43)) = _
  simp only [hostOps1]
  after_results_simp
  exact hS

set_option maxHeartbeats 2000000 in
theorem E1_1 (h : Agree m c L) (hS : W2 m ρ c (Proc.devRef .tc main_v43) = res_main_v96 L) : (V3 m ρ c main_v53 : Arr) = nbrSum L (res_main_v96 L) := by
  show StableHlo.after hostOps1 (W2 m ρ c) (no_index (Proc.devRef .tc main_v53)) = _
  simp only [hostOps1]
  after_results_simp
  rw [hS, W2_v1 ρ h, W2_v3 ρ h]
  rfl

set_option maxHeartbeats 2000000 in
theorem E1_2 (h : Agree m c L) : (V3 m ρ c main_v56 : S1x1.Idx → EReal) (ix2 (0 : Fin 1) (0 : Fin 1)) = eps1 L ix0 := by
  show StableHlo.after hostOps1 (W2 m ρ c) (no_index (Proc.devRef .tc main_v56)) _ = _
  simp only [hostOps1]
  after_results_simp
  rw [W2_arg2 ρ h]
  exact cast_scalar_apply (eps1 L) shapeCasts_S_S1x1

set_option maxHeartbeats 2000000 in
theorem E1_3 (h : Agree m c L) (i : S128x128.Idx) : (V3 m ρ c main_v59 : S128x128.Idx → EReal) i = w1_1 L i := by
  show StableHlo.after hostOps1 (W2 m ρ c) (no_index (Proc.devRef .tc main_v59)) _ = _
  simp only [hostOps1]
  after_results_simp
  rw [W2_arg3 ρ h]
  rfl

set_option maxHeartbeats 2000000 in
theorem E1_4 (h : Agree m c L) (q : Fin 128) : (V3 m ρ c main_v62 : S1x128.Idx → EReal) (ix2 (0 : Fin 1) q) = b1_1 L (ix1 q) := by
  show StableHlo.after hostOps1 (W2 m ρ c) (no_index (Proc.devRef .tc main_v62)) _ = _
  simp only [hostOps1]
  after_results_simp
  rw [W2_arg4 ρ h]
  exact cast_row_apply (b1_1 L) shapeCasts_S128_S1x128 q

set_option maxHeartbeats 2000000 in
theorem E1_5 (h : Agree m c L) (i : S128x128.Idx) : (V3 m ρ c main_v65 : S128x128.Idx → EReal) i = w2_1 L i := by
  show StableHlo.after hostOps1 (W2 m ρ c) (no_index (Proc.devRef .tc main_v65)) _ = _
  simp only [hostOps1]
  after_results_simp
  rw [W2_arg5 ρ h]
  rfl

set_option maxHeartbeats 2000000 in
theorem E1_6 (h : Agree m c L) (q : Fin 128) : (V3 m ρ c main_v68 : S1x128.Idx → EReal) (ix2 (0 : Fin 1) q) = b2_1 L (ix1 q) := by
  show StableHlo.after hostOps1 (W2 m ρ c) (no_index (Proc.devRef .tc main_v68)) _ = _
  simp only [hostOps1]
  after_results_simp
  rw [W2_arg6 ρ h]
  exact cast_row_apply (b2_1 L) shapeCasts_S128_S1x128 q

set_option maxHeartbeats 2000000 in
theorem E1_7 (h : Agree m c L) (q : Fin 128) : (V3 m ρ c main_v71 : S1x128.Idx → EReal) (ix2 (0 : Fin 1) q) = g_1 L (ix1 q) := by
  show StableHlo.after hostOps1 (W2 m ρ c) (no_index (Proc.devRef .tc main_v71)) _ = _
  simp only [hostOps1]
  after_results_simp
  rw [W2_arg7 ρ h]
  exact cast_row_apply (g_1 L) shapeCasts_S128_S1x128 q

set_option maxHeartbeats 2000000 in
theorem E1_8 (h : Agree m c L) (q : Fin 128) : (V3 m ρ c main_v74 : S1x128.Idx → EReal) (ix2 (0 : Fin 1) q) = c_1 L (ix1 q) := by
  show StableHlo.after hostOps1 (W2 m ρ c) (no_index (Proc.devRef .tc main_v74)) _ = _
  simp only [hostOps1]
  after_results_simp
  rw [W2_arg8 ρ h]
  exact cast_row_apply (c_1 L) shapeCasts_S128_S1x128 q

set_option maxHeartbeats 2000000 in
theorem E1_9 (h : Agree m c L) (q : Fin 128) : (V3 m ρ c main_v77 : S1x128.Idx → EReal) (ix2 (0 : Fin 1) q) = gs_1 L (ix1 q) := by
  show StableHlo.after hostOps1 (W2 m ρ c) (no_index (Proc.devRef .tc main_v77)) _ = _
  simp only [hostOps1]
  after_results_simp
  rw [W2_arg9 ρ h]
  exact cast_row_apply (gs_1 L) shapeCasts_S128_S1x128 q

set_option maxHeartbeats 2000000 in
theorem E1_10 (h : Agree m c L) (q : Fin 128) : (V3 m ρ c main_v80 : S1x128.Idx → EReal) (ix2 (0 : Fin 1) q) = cs_1 L (ix1 q) := by
  show StableHlo.after hostOps1 (W2 m ρ c) (no_index (Proc.devRef .tc main_v80)) _ = _
  simp only [hostOps1]
  after_results_simp
  rw [W2_arg10 ρ h]
  exact cast_row_apply (cs_1 L) shapeCasts_S128_S1x128 q

/-! ## Region 2 on entry -/

set_option maxHeartbeats 2000000 in
theorem E2_0 (h : Agree m c L) (hS : W4 m ρ c (Proc.devRef .tc main_v81) = res_main_v189 L) : (V5 m ρ c main_v81 : Arr) = res_main_v189 L := by
  show StableHlo.after hostOps2 (W4 m ρ c) (no_index (Proc.devRef .tc main_v81)) = _
  simp only [hostOps2]
  after_results_simp
  exact hS

set_option maxHeartbeats 2000000 in
theorem E2_1 (h : Agree m c L) (hS : W4 m ρ c (Proc.devRef .tc main_v81) = res_main_v189 L) : (V5 m ρ c main_v91 : Arr) = nbrSum L (res_main_v189 L) := by
  show StableHlo.after hostOps2 (W4 m ρ c) (no_index (Proc.devRef .tc main_v91)) = _
  simp only [hostOps2]
  after_results_simp
  rw [hS, W4_v1 ρ h, W4_v3 ρ h]
  rfl

set_option maxHeartbeats 2000000 in
theorem E2_2 (h : Agree m c L) : (V5 m ρ c main_v94 : S1x1.Idx → EReal) (ix2 (0 : Fin 1) (0 : Fin 1)) = eps2 L ix0 := by
  show StableHlo.after hostOps2 (W4 m ρ c) (no_index (Proc.devRef .tc main_v94)) _ = _
  simp only [hostOps2]
  after_results_simp
  rw [W4_arg2 ρ h]
  exact cast_scalar_apply (eps2 L) shapeCasts_S_S1x1

set_option maxHeartbeats 2000000 in
theorem E2_3 (h : Agree m c L) (i : S128x128.Idx) : (V5 m ρ c main_v97 : S128x128.Idx → EReal) i = w1_2 L i := by
  show StableHlo.after hostOps2 (W4 m ρ c) (no_index (Proc.devRef .tc main_v97)) _ = _
  simp only [hostOps2]
  after_results_simp
  rw [W4_arg3 ρ h]
  rfl

set_option maxHeartbeats 2000000 in
theorem E2_4 (h : Agree m c L) (q : Fin 128) : (V5 m ρ c main_v100 : S1x128.Idx → EReal) (ix2 (0 : Fin 1) q) = b1_2 L (ix1 q) := by
  show StableHlo.after hostOps2 (W4 m ρ c) (no_index (Proc.devRef .tc main_v100)) _ = _
  simp only [hostOps2]
  after_results_simp
  rw [W4_arg4 ρ h]
  exact cast_row_apply (b1_2 L) shapeCasts_S128_S1x128 q

set_option maxHeartbeats 2000000 in
theorem E2_5 (h : Agree m c L) (i : S128x128.Idx) : (V5 m ρ c main_v103 : S128x128.Idx → EReal) i = w2_2 L i := by
  show StableHlo.after hostOps2 (W4 m ρ c) (no_index (Proc.devRef .tc main_v103)) _ = _
  simp only [hostOps2]
  after_results_simp
  rw [W4_arg5 ρ h]
  rfl

set_option maxHeartbeats 2000000 in
theorem E2_6 (h : Agree m c L) (q : Fin 128) : (V5 m ρ c main_v106 : S1x128.Idx → EReal) (ix2 (0 : Fin 1) q) = b2_2 L (ix1 q) := by
  show StableHlo.after hostOps2 (W4 m ρ c) (no_index (Proc.devRef .tc main_v106)) _ = _
  simp only [hostOps2]
  after_results_simp
  rw [W4_arg6 ρ h]
  exact cast_row_apply (b2_2 L) shapeCasts_S128_S1x128 q

set_option maxHeartbeats 2000000 in
theorem E2_7 (h : Agree m c L) (q : Fin 128) : (V5 m ρ c main_v109 : S1x128.Idx → EReal) (ix2 (0 : Fin 1) q) = g_2 L (ix1 q) := by
  show StableHlo.after hostOps2 (W4 m ρ c) (no_index (Proc.devRef .tc main_v109)) _ = _
  simp only [hostOps2]
  after_results_simp
  rw [W4_arg7 ρ h]
  exact cast_row_apply (g_2 L) shapeCasts_S128_S1x128 q

set_option maxHeartbeats 2000000 in
theorem E2_8 (h : Agree m c L) (q : Fin 128) : (V5 m ρ c main_v112 : S1x128.Idx → EReal) (ix2 (0 : Fin 1) q) = c_2 L (ix1 q) := by
  show StableHlo.after hostOps2 (W4 m ρ c) (no_index (Proc.devRef .tc main_v112)) _ = _
  simp only [hostOps2]
  after_results_simp
  rw [W4_arg8 ρ h]
  exact cast_row_apply (c_2 L) shapeCasts_S128_S1x128 q

end Cert.KernelIdeal.Hand

end
-- ==== Proof.LayerBlocks.lean ====
/-
  The three layer kernels' bodies, block by block.

  Each region's body computes, from its windows' blocks at a grid point, the block it writes back.  When the two
  row-tiled blocks hold rows `o … o + 1999` of the layer's input features `H` and of the neighbours' sums `A`, and the
  nine parameter blocks hold the layer's parameters, the written block holds rows `o … o + 1999` of the layer's output
  (`layerSkip` for the first two regions, `layerLast` for the third): every step of the layer reads one row at a time
  (LibLayerRows), and a kernel's product into a zero accumulator, its lane sums, its quotients and its reciprocal
  square root are the host's at the ideal values.
-/
import proofs.«121161_j27779848470880_1_alg».proof.Proof.Gen.KernelIdeal.Frame
import proofs.«121161_j27779848470880_1_alg».proof.Proof.LayerSpec
import proofs.«121161_j27779848470880_1_alg».proof.Proof.LibLayerRows

set_option maxRecDepth 16384

noncomputable section

namespace Cert.KernelIdeal.Hand

open Cert.KernelIdeal Cert.KernelIdeal.Gen
open Cert.ReferenceIdeal.Spec (Arr Mat Vec128 Scal layerSkip layerLast perceptron rowNorm rowMean rowDev spread zeros)
open Idealize.ShloMosaic Idealize.ShloMosaic.ValueIdx Idealize.ShloMosaic.Pipeline
open Cert.Lib.RowBlocks

theorem zero_off : (![0, 0] : Fin 2 → Nat) = fun _ => 0 := funext fun a => by fin_cases a <;> rfl

variable {o : Nat} {H A : Arr} (e : Scal) (W1 W2 : Mat) (b1 b2 g c gs cs : Vec128)

/-- The scalar `1 + ε`: the 1 × 1 block's entry plus one is the long side's scalar. -/
theorem one_plus_eps (x2 : Vec Ideal S1x1 .f32) (h2 : x2 (ix2 (0 : Fin 1) (0 : Fin 1)) = e ix0) (hc : S1x1.ShapeCasts S1x1) :
    (addf (broadcast S1x1 (Scalar.ofBits (F := Ideal) .f32 0x3F800000#32)) (shapeCast S1x1 x2 hc) : FVec Ideal S1x1 .f32) (ix2 (0 : Fin 1) (0 : Fin 1))
      = (addf (constant (F := Ideal) Cert.ReferenceIdeal.S_ .f32 0x3F800000#32) e : FVec Ideal Cert.ReferenceIdeal.S_ .f32) ix0 := by
  rw [shapeCast_self]
  exact congrArg (fun v => (Ideal.ofBits .f32 0x3F800000#32 : EReal) + v) h2

/-- REGION 0. -/
theorem rows_out0
    (x0 x1 : Vec Ideal S2000x128 .f32) (x2 : Vec Ideal S1x1 .f32) (x3 : Vec Ideal S128x128 .bf16) (x4 : Vec Ideal S1x128 .f32)
    (x5 : Vec Ideal S128x128 .bf16) (x6 x7 x8 x9 x10 : Vec Ideal S1x128 .f32)
    (hH : RowsOf 50000 2000 128 o H x0) (hA : RowsOf 50000 2000 128 o A x1)
    (h2 : x2 (ix2 (0 : Fin 1) (0 : Fin 1)) = e ix0) (h3 : ∀ i, x3 i = W1 i)
    (h4 : ∀ q : Fin 128, x4 (ix2 (0 : Fin 1) q) = b1 (ix1 q)) (h5 : ∀ i, x5 i = W2 i)
    (h6 : ∀ q : Fin 128, x6 (ix2 (0 : Fin 1) q) = b2 (ix1 q)) (h7 : ∀ q : Fin 128, x7 (ix2 (0 : Fin 1) q) = g (ix1 q))
    (h8 : ∀ q : Fin 128, x8 (ix2 (0 : Fin 1) q) = c (ix1 q))
    (h9 : ∀ q : Fin 128, x9 (ix2 (0 : Fin 1) q) = gs (ix1 q)) (h10 : ∀ q : Fin 128, x10 (ix2 (0 : Fin 1) q) = cs (ix1 q)) :
    RowsOf 50000 2000 128 o (layerSkip e H A W1 b1 W2 b2 g c gs cs) (out0_11 x0 x1 x2 x3 x4 x5 x6 x7 x8 x9 x10) := by
  unfold out0_11
  rw [View.canon_unit_zero zero_off]
  simp only [View.ld_unit_zero (S := S2000x128) zero_off, View.ld_unit_zero (S := S1x1) zero_off,
    View.ld_unit_zero (S := S128x128) zero_off, View.ld_unit_zero (S := S1x128) zero_off]
  unfold layerSkip rowNorm rowDev rowMean perceptron k0_pay1 k0_pay5 k0_pay4 k0_pay3 k0_pay2
  have hP := RowsOf.perceptron hH (hA.castSelf shapeCasts_S2000x128_S2000x128) _ _ (one_plus_eps e x2 h2 shapeCasts_S1x1_S1x1)
    W1 _ (castSelf_eq x3 W1 shapeCasts_S128x128_S128x128 h3) b1 x4 h4 W2 _ (castSelf_eq x5 W2 shapeCasts_S128x128_S128x128 h5) b2 x6 h6
    Cert.ReferenceIdeal.Facts₀.bcast_S_S50000x128 broadcasts_S1x1_S2000x128 Cert.ReferenceIdeal.Facts₀.bcast_S_S50000x128
    Cert.ReferenceIdeal.Facts₀.bcast_S128_S1x128_1 Cert.ReferenceIdeal.Facts₀.bcast_S1x128_S50000x128_0_1
    shapeCasts_S1x128_S1x128 broadcasts_S1x128_S2000x128 bitsLt_bf16_f32
  refine RowsOf.add (φ := .f32) (φ' := .f32) (RowsOf.max (φ := .f32) (φ' := .f32) ?_ (RowsOf.splat 0x00000000#32 _)) hH
  refine RowsOf.rowNorm ?_ gs x9 h9 cs x10 h10 0x43000000#32 0x3727C5AC#32 _ _ _ _ _ _ _ _ _ _ _ _ _ _
  refine RowsOf.rowNorm ?_ g x7 h7 c x8 h8 0x43000000#32 0x3727C5AC#32 _ _ _ _ _ _ _ _ _ _ _ _ _ _
  exact hP

/-- REGION 1: the same layer; its body reads the features through a shape cast to their own shape. -/
theorem rows_out1
    (x0 x1 : Vec Ideal S2000x128 .f32) (x2 : Vec Ideal S1x1 .f32) (x3 : Vec Ideal S128x128 .bf16) (x4 : Vec Ideal S1x128 .f32)
    (x5 : Vec Ideal S128x128 .bf16) (x6 x7 x8 x9 x10 : Vec Ideal S1x128 .f32)
    (hH : RowsOf 50000 2000 128 o H x0) (hA : RowsOf 50000 2000 128 o A x1)
    (h2 : x2 (ix2 (0 : Fin 1) (0 : Fin 1)) = e ix0) (h3 : ∀ i, x3 i = W1 i)
    (h4 : ∀ q : Fin 128, x4 (ix2 (0 : Fin 1) q) = b1 (ix1 q)) (h5 : ∀ i, x5 i = W2 i)
    (h6 : ∀ q : Fin 128, x6 (ix2 (0 : Fin 1) q) = b2 (ix1 q)) (h7 : ∀ q : Fin 128, x7 (ix2 (0 : Fin 1) q) = g (ix1 q))
    (h8 : ∀ q : Fin 128, x8 (ix2 (0 : Fin 1) q) = c (ix1 q))
    (h9 : ∀ q : Fin 128, x9 (ix2 (0 : Fin 1) q) = gs (ix1 q)) (h10 : ∀ q : Fin 128, x10 (ix2 (0 : Fin 1) q) = cs (ix1 q)) :
    RowsOf 50000 2000 128 o (layerSkip e H A W1 b1 W2 b2 g c gs cs) (out1_11 x0 x1 x2 x3 x4 x5 x6 x7 x8 x9 x10) := by
  unfold out1_11
  rw [View.canon_unit_zero zero_off]
  simp only [View.ld_unit_zero (S := S2000x128) zero_off, View.ld_unit_zero (S := S1x1) zero_off,
    View.ld_unit_zero (S := S128x128) zero_off, View.ld_unit_zero (S := S1x128) zero_off]
  unfold layerSkip rowNorm rowDev rowMean perceptron k1_pay1 k1_pay7 k1_pay6 k1_pay5 k1_pay4 k1_pay3 k1_pay2
  have hH' := hH.castSelf shapeCasts_S2000x128_S2000x128
  have hP := RowsOf.perceptron hH' (hA.castSelf shapeCasts_S2000x128_S2000x128) _ _ (one_plus_eps e x2 h2 shapeCasts_S1x1_S1x1)
    W1 _ (castSelf_eq x3 W1 shapeCasts_S128x128_S128x128 h3) b1 x4 h4 W2 _ (castSelf_eq x5 W2 shapeCasts_S128x128_S128x128 h5) b2 x6 h6
    Cert.ReferenceIdeal.Facts₀.bcast_S_S50000x128 broadcasts_S1x1_S2000x128 Cert.ReferenceIdeal.Facts₀.bcast_S_S50000x128
    Cert.ReferenceIdeal.Facts₀.bcast_S128_S1x128_1 Cert.ReferenceIdeal.Facts₀.bcast_S1x128_S50000x128_0_1
    shapeCasts_S1x128_S1x128 broadcasts_S1x128_S2000x128 bitsLt_bf16_f32
  refine RowsOf.add (φ := .f32) (φ' := .f32) (RowsOf.max (φ := .f32) (φ' := .f32) ?_ (RowsOf.splat 0x00000000#32 _)) hH'
  refine RowsOf.rowNorm ?_ gs x9 h9 cs x10 h10 0x43000000#32 0x3727C5AC#32 _ _ _ _ _ _ _ _ _ _ _ _ _ _
  refine RowsOf.rowNorm ?_ g x7 h7 c x8 h8 0x43000000#32 0x3727C5AC#32 _ _ _ _ _ _ _ _ _ _ _ _ _ _
  exact hP

/-- REGION 2: the last layer — one normalisation, no rectifier; its last two windows are not read. -/
theorem rows_out2
    (x0 x1 : Vec Ideal S2000x128 .f32) (x2 : Vec Ideal S1x1 .f32) (x3 : Vec Ideal S128x128 .bf16) (x4 : Vec Ideal S1x128 .f32)
    (x5 : Vec Ideal S128x128 .bf16) (x6 x7 x8 x9 x10 : Vec Ideal S1x128 .f32)
    (hH : RowsOf 50000 2000 128 o H x0) (hA : RowsOf 50000 2000 128 o A x1)
    (h2 : x2 (ix2 (0 : Fin 1) (0 : Fin 1)) = e ix0) (h3 : ∀ i, x3 i = W1 i)
    (h4 : ∀ q : Fin 128, x4 (ix2 (0 : Fin 1) q) = b1 (ix1 q)) (h5 : ∀ i, x5 i = W2 i)
    (h6 : ∀ q : Fin 128, x6 (ix2 (0 : Fin 1) q) = b2 (ix1 q)) (h7 : ∀ q : Fin 128, x7 (ix2 (0 : Fin 1) q) = g (ix1 q))
    (h8 : ∀ q : Fin 128, x8 (ix2 (0 : Fin 1) q) = c (ix1 q)) :
    RowsOf 50000 2000 128 o (layerLast e H A W1 b1 W2 b2 g c) (out2_11 x0 x1 x2 x3 x4 x5 x6 x7 x8 x9 x10) := by
  unfold out2_11
  rw [View.canon_unit_zero zero_off]
  simp only [View.ld_unit_zero (S := S2000x128) zero_off, View.ld_unit_zero (S := S1x1) zero_off,
    View.ld_unit_zero (S := S128x128) zero_off, View.ld_unit_zero (S := S1x128) zero_off]
  unfold layerLast rowNorm rowDev rowMean perceptron k2_pay1 k2_pay5 k2_pay4 k2_pay3 k2_pay2
  have hH' := hH.castSelf shapeCasts_S2000x128_S2000x128
  have hP := RowsOf.perceptron hH' (hA.castSelf shapeCasts_S2000x128_S2000x128) _ _ (one_plus_eps e x2 h2 shapeCasts_S1x1_S1x1)
    W1 _ (castSelf_eq x3 W1 shapeCasts_S128x128_S128x128 h3) b1 x4 h4 W2 _ (castSelf_eq x5 W2 shapeCasts_S128x128_S128x128 h5) b2 x6 h6
    Cert.ReferenceIdeal.Facts₀.bcast_S_S50000x128 broadcasts_S1x1_S2000x128 Cert.ReferenceIdeal.Facts₀.bcast_S_S50000x128
    Cert.ReferenceIdeal.Facts₀.bcast_S128_S1x128_1 Cert.ReferenceIdeal.Facts₀.bcast_S1x128_S50000x128_0_1
    shapeCasts_S1x128_S1x128 broadcasts_S1x128_S2000x128 bitsLt_bf16_f32
  refine RowsOf.add (φ := .f32) (φ' := .f32) ?_ hH'
  refine RowsOf.rowNorm ?_ g x7 h7 c x8 h8 0x43000000#32 0x3727C5AC#32 _ _ _ _ _ _ _ _ _ _ _ _ _ _
  exact hP

end Cert.KernelIdeal.Hand

end
-- ==== Proof.RegionBlocks0.lean ====
/-
  Region 0 of the idealized kernel (the first layer's kernel), its windows' blocks and its output array.

  The grid has 25 points.  The two row-tiled input windows (the layer's input features and the neighbours' sums) and
  the output window move with the point: at point `t` their block is rows `2000·t … 2000·t + 1999` of the 50000-row
  array.  The nine parameter windows hold their whole array at every point.  The output's blocks tile the output
  array, so once every point's written-back block is known to hold the rows `2000·t …` of some array `G`, the output
  array ends as `G`.
-/
import proofs.«121161_j27779848470880_1_alg».proof.Proof.Gen.KernelIdeal.Frame
import proofs.«121161_j27779848470880_1_alg».proof.Proof.LibRowBlocks
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.RowBlocks

variable (V : (c : Dev nD) → (b : Ref sig .tc) → Buf (Elt Ideal) ((c : Thread nD τ).loc b))

/-- The index maps of the three row-tiled windows, decided over the grid: block `(t, 0)` at point `t`. -/
private theorem idxRows0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_11.index t (0 : Fin 2) = t.val ∧ win0_11.index t (1 : Fin 2) = 0 :=
  (by decide +kernel : ∀ t : Fin grid0.N, _)

/-- The index maps of the nine parameter windows, decided over the grid: block `(0, 0)` at every point. -/
private theorem idxWhole0 : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-- A block of rows read at an index given by its coordinates: the long array at the shifted row, same column. -/
private theorem rowsOf_at {G : S50000x128.Idx → EReal} {B : S2000x128.Idx → EReal} {o : Nat}
    (h : RowsOf 50000 2000 128 o G B) (j : S2000x128.Idx) (i : S50000x128.Idx)
    (h0 : (i 0).val = o + (j 0).val) (h1 : (i 1).val = (j 1).val) : B j = G i := by
  have hi : (i 0).val < 50000 := idx2_lt0 i
  have hlt : o + (j 0).val < 50000 := by omega
  refine ((congrArg B (eq_ix2 j)).trans (h (j 0) (j 1) hlt)).trans (congrArg G ?_)
  funext a
  apply Fin.ext
  match a with
  | ⟨0, _⟩ => exact h0.symm
  | ⟨1, _⟩ => exact h1.symm

/-- An index of the output array is in point `t`'s block iff each coordinate is in the block's range on its axis. -/
private theorem mem_blk0_11 (t : Fin cfg0.N) (i : S50000x128.Idx) :
    i ∈ ((cfg0.win 11).blk t).view.set ↔ ∀ a : Fin 2, win0_11.index t a * S2000x128.size a ≤ (i a).val
      ∧ (i a).val < win0_11.index t a * S2000x128.size a + S2000x128.size a := by
  show i ∈ ((View.whole main_v43).slice (win0_11.rect t)).set ↔ _
  rw [View.set_slice_whole, Rect.mem_set_unit]
  exact Iff.rfl

/-- Every index of the output array is in some point's block: row `r` in the block of point `r / 2000`. -/
private theorem cover0_11 (i : S50000x128.Idx) :
    ∃ t : Fin cfg0.N, (cfg0.win 11).flush t = true ∧ i ∈ ((cfg0.win 11).blk t).view.set := by
  have hi0 : (i 0).val < 50000 := idx2_lt0 i
  have hi1 : (i 1).val < 128 := idx2_lt1 i
  have hN : cfg0.N = 25 := N_0
  obtain ⟨t, ht⟩ : ∃ t : Fin cfg0.N, t.val = (i 0).val / 2000 := ⟨⟨(i 0).val / 2000, by rw [hN]; omega⟩, rfl⟩
  refine ⟨t, flush0_11 t, ?_⟩
  rw [mem_blk0_11]
  obtain ⟨-, -, -, -, e0, e1⟩ := idxRows0 t
  intro a
  match a with
  | ⟨0, _⟩ =>
    show win0_11.index t (0 : Fin 2) * 2000 ≤ (i 0).val ∧ (i 0).val < win0_11.index t (0 : Fin 2) * 2000 + 2000
    omega
  | ⟨1, _⟩ =>
    show win0_11.index t (1 : Fin 2) * 128 ≤ (i 1).val ∧ (i 1).val < win0_11.index t (1 : Fin 2) * 128 + 128
    omega

/-- The features window's block at point `t` holds rows `2000·t …` of its array. -/
theorem rows0_0 (c : Dev nD) (t : Fin cfg0.N) :
    RowsOf 50000 2000 128 (2000 * t.val) (V c main_arg0 : S50000x128.Idx → EReal) (iblk0 V c 0 t) := by
  intro y k hlt
  obtain ⟨e0, e1, -, -, -, -⟩ := idxRows0 t
  show (V c main_arg0 : S50000x128.Idx → EReal) (((cfg0.win 0).blk t).view.emb (ix2 y k))
    = V c main_arg0 (ix2 ⟨2000 * t.val + y.val, hlt⟩ k)
  congr 1
  funext a
  apply Fin.ext
  match a with
  | ⟨0, _⟩ => show win0_0.index t (0 : Fin 2) * 2000 + 1 * y.val = 2000 * t.val + y.val; omega
  | ⟨1, _⟩ => show win0_0.index t (1 : Fin 2) * 128 + 1 * k.val = k.val; omega

/-- The neighbours' sums window's block at point `t` holds rows `2000·t …` of its array. -/
theorem rows0_1 (c : Dev nD) (t : Fin cfg0.N) :
    RowsOf 50000 2000 128 (2000 * t.val) (V c main_v15 : S50000x128.Idx → EReal) (iblk0 V c 1 t) := by
  intro y k hlt
  obtain ⟨-, -, e0, e1, -, -⟩ := idxRows0 t
  show (V c main_v15 : S50000x128.Idx → EReal) (((cfg0.win 1).blk t).view.emb (ix2 y k))
    = V c main_v15 (ix2 ⟨2000 * t.val + y.val, hlt⟩ k)
  congr 1
  funext a
  apply Fin.ext
  match a with
  | ⟨0, _⟩ => show win0_1.index t (0 : Fin 2) * 2000 + 1 * y.val = 2000 * t.val + y.val; omega
  | ⟨1, _⟩ => show win0_1.index t (1 : Fin 2) * 128 + 1 * k.val = k.val; omega

/-- Window 2's block is its whole array, at every point. -/
theorem whole0_2 (c : Dev nD) (t : Fin cfg0.N) :
    (iblk0 V c 2 t : S1x1.Idx → EReal) = (V c main_v18 : S1x1.Idx → EReal) := by
  obtain ⟨e0, e1, -, -, -, -, -, -, -, -, -, -, -, -, -, -, -, -⟩ := idxWhole0 t
  funext j
  show (V c main_v18 : S1x1.Idx → EReal) (((cfg0.win 2).blk t).view.emb j) = V c main_v18 j
  congr 1
  funext a
  apply Fin.ext
  match a with
  | ⟨0, _⟩ => show win0_2.index t (0 : Fin 2) * 1 + 1 * (j 0).val = (j 0).val; omega
  | ⟨1, _⟩ => show win0_2.index t (1 : Fin 2) * 1 + 1 * (j 1).val = (j 1).val; omega

/-- Window 3's block is its whole array, at every point. -/
theorem whole0_3 (c : Dev nD) (t : Fin cfg0.N) :
    (iblk0 V c 3 t : S128x128.Idx → EReal) = (V c main_v21 : S128x128.Idx → EReal) := by
  obtain ⟨-, -, e0, e1, -, -, -, -, -, -, -, -, -, -, -, -, -, -⟩ := idxWhole0 t
  funext j
  show (V c main_v21 : S128x128.Idx → EReal) (((cfg0.win 3).blk t).view.emb j) = V c main_v21 j
  congr 1
  funext a
  apply Fin.ext
  match a with
  | ⟨0, _⟩ => show win0_3.index t (0 : Fin 2) * 128 + 1 * (j 0).val = (j 0).val; omega
  | ⟨1, _⟩ => show win0_3.index t (1 : Fin 2) * 128 + 1 * (j 1).val = (j 1).val; omega

/-- Window 4's block is its whole array, at every point. -/
theorem whole0_4 (c : Dev nD) (t : Fin cfg0.N) :
    (iblk0 V c 4 t : S1x128.Idx → EReal) = (V c main_v24 : S1x128.Idx → EReal) := by
  obtain ⟨-, -, -, -, e0, e1, -, -, -, -, -, -, -, -, -, -, -, -⟩ := idxWhole0 t
  funext j
  show (V c main_v24 : S1x128.Idx → EReal) (((cfg0.win 4).blk t).view.emb j) = V c main_v24 j
  congr 1
  funext a
  apply Fin.ext
  match a with
  | ⟨0, _⟩ => show win0_4.index t (0 : Fin 2) * 1 + 1 * (j 0).val = (j 0).val; omega
  | ⟨1, _⟩ => show win0_4.index t (1 : Fin 2) * 128 + 1 * (j 1).val = (j 1).val; omega

/-- Window 5's block is its whole array, at every point. -/
theorem whole0_5 (c : Dev nD) (t : Fin cfg0.N) :
    (iblk0 V c 5 t : S128x128.Idx → EReal) = (V c main_v27 : S128x128.Idx → EReal) := by
  obtain ⟨-, -, -, -, -, -, e0, e1, -, -, -, -, -, -, -, -, -, -⟩ := idxWhole0 t
  funext j
  show (V c main_v27 : S128x128.Idx → EReal) (((cfg0.win 5).blk t).view.emb j) = V c main_v27 j
  congr 1
  funext a
  apply Fin.ext
  match a with
  | ⟨0, _⟩ => show win0_5.index t (0 : Fin 2) * 128 + 1 * (j 0).val = (j 0).val; omega
  | ⟨1, _⟩ => show win0_5.index t (1 : Fin 2) * 128 + 1 * (j 1).val = (j 1).val; omega

/-- Window 6's block is its whole array, at every point. -/
theorem whole0_6 (c : Dev nD) (t : Fin cfg0.N) :
    (iblk0 V c 6 t : S1x128.Idx → EReal) = (V c main_v30 : S1x128.Idx → EReal) := by
  obtain ⟨-, -, -, -, -, -, -, -, e0, e1, -, -, -, -, -, -, -, -⟩ := idxWhole0 t
  funext j
  show (V c main_v30 : S1x128.Idx → EReal) (((cfg0.win 6).blk t).view.emb j) = V c main_v30 j
  congr 1
  funext a
  apply Fin.ext
  match a with
  | ⟨0, _⟩ => show win0_6.index t (0 : Fin 2) * 1 + 1 * (j 0).val = (j 0).val; omega
  | ⟨1, _⟩ => show win0_6.index t (1 : Fin 2) * 128 + 1 * (j 1).val = (j 1).val; omega

/-- Window 7's block is its whole array, at every point. -/
theorem whole0_7 (c : Dev nD) (t : Fin cfg0.N) :
    (iblk0 V c 7 t : S1x128.Idx → EReal) = (V c main_v33 : S1x128.Idx → EReal) := by
  obtain ⟨-, -, -, -, -, -, -, -, -, -, e0, e1, -, -, -, -, -, -⟩ := idxWhole0 t
  funext j
  show (V c main_v33 : S1x128.Idx → EReal) (((cfg0.win 7).blk t).view.emb j) = V c main_v33 j
  congr 1
  funext a
  apply Fin.ext
  match a with
  | ⟨0, _⟩ => show win0_7.index t (0 : Fin 2) * 1 + 1 * (j 0).val = (j 0).val; omega
  | ⟨1, _⟩ => show win0_7.index t (1 : Fin 2) * 128 + 1 * (j 1).val = (j 1).val; omega

/-- Window 8's block is its whole array, at every point. -/
theorem whole0_8 (c : Dev nD) (t : Fin cfg0.N) :
    (iblk0 V c 8 t : S1x128.Idx → EReal) = (V c main_v36 : S1x128.Idx → EReal) := by
  obtain ⟨-, -, -, -, -, -, -, -, -, -, -, -, e0, e1, -, -, -, -⟩ := idxWhole0 t
  funext j
  show (V c main_v36 : S1x128.Idx → EReal) (((cfg0.win 8).blk t).view.emb j) = V c main_v36 j
  congr 1
  funext a
  apply Fin.ext
  match a with
  | ⟨0, _⟩ => show win0_8.index t (0 : Fin 2) * 1 + 1 * (j 0).val = (j 0).val; omega
  | ⟨1, _⟩ => show win0_8.index t (1 : Fin 2) * 128 + 1 * (j 1).val = (j 1).val; omega

/-- Window 9's block is its whole array, at every point. -/
theorem whole0_9 (c : Dev nD) (t : Fin cfg0.N) :
    (iblk0 V c 9 t : S1x128.Idx → EReal) = (V c main_v39 : S1x128.Idx → EReal) := by
  obtain ⟨-, -, -, -, -, -, -, -, -, -, -, -, -, -, e0, e1, -, -⟩ := idxWhole0 t
  funext j
  show (V c main_v39 : S1x128.Idx → EReal) (((cfg0.win 9).blk t).view.emb j) = V c main_v39 j
  congr 1
  funext a
  apply Fin.ext
  match a with
  | ⟨0, _⟩ => show win0_9.index t (0 : Fin 2) * 1 + 1 * (j 0).val = (j 0).val; omega
  | ⟨1, _⟩ => show win0_9.index t (1 : Fin 2) * 128 + 1 * (j 1).val = (j 1).val; omega

/-- Window 10's block is its whole array, at every point. -/
theorem whole0_10 (c : Dev nD) (t : Fin cfg0.N) :
    (iblk0 V c 10 t : S1x128.Idx → EReal) = (V c main_v42 : S1x128.Idx → EReal) := by
  obtain ⟨-, -, -, -, -, -, -, -, -, -, -, -, -, -, -, -, e0, e1⟩ := idxWhole0 t
  funext j
  show (V c main_v42 : S1x128.Idx → EReal) (((cfg0.win 10).blk t).view.emb j) = V c main_v42 j
  congr 1
  funext a
  apply Fin.ext
  match a with
  | ⟨0, _⟩ => show win0_10.index t (0 : Fin 2) * 1 + 1 * (j 0).val = (j 0).val; omega
  | ⟨1, _⟩ => show win0_10.index t (1 : Fin 2) * 128 + 1 * (j 1).val = (j 1).val; omega

/-- The output array after the region: if every point's block of the body's result holds rows `2000·t …` of `G`, the
    array ends as `G` (the 25 blocks tile its 50000 rows). -/
theorem array0 (c : Dev nD) (G : S50000x128.Idx → EReal)
    (h : ∀ t : Fin cfg0.N, RowsOf 50000 2000 128 (2000 * t.val) G
      (out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t))) :
    ((dat0 V c).arrAt 11 cfg0.N : S50000x128.Idx → EReal) = G := by
  refine (dat0 V c).arrAt_eq_of_cover 11 G (fun t _ => ?_) (fun i => cover0_11 i)
  -- what point `t` writes back is block `t` of `G`
  show (cfg0.win 11).cut (grid0.coords t) ((dat0 V c).after 11 t) = _
  rw [after0_11]
  obtain ⟨-, -, -, -, e0, e1⟩ := idxRows0 t
  funext j
  show out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) j
    = G (((cfg0.win 11).blk t).view.emb j)
  refine rowsOf_at (h t) j _ ?_ ?_
  · show win0_11.index t (0 : Fin 2) * 2000 + 1 * (j 0).val = 2000 * t.val + (j 0).val
    omega
  · show win0_11.index t (1 : Fin 2) * 128 + 1 * (j 1).val = (j 1).val
    omega

end Cert.KernelIdeal.Hand

end
-- ==== Proof.RegionBlocks1.lean ====
/-
  Region 1 of the idealized kernel (the second layer's kernel), its windows' blocks and its output array.

  The grid has 25 points.  The two row-tiled input windows (the layer's input features and the neighbours' sums) and
  the output window move with the point: at point `t` their block is rows `2000·t … 2000·t + 1999` of the 50000-row
  array.  The nine parameter windows hold their whole array at every point.  The output's blocks tile the output
  array, so once every point's written-back block is known to hold the rows `2000·t …` of some array `G`, the output
  array ends as `G`.
-/
import proofs.«121161_j27779848470880_1_alg».proof.Proof.Gen.KernelIdeal.Frame
import proofs.«121161_j27779848470880_1_alg».proof.Proof.LibRowBlocks
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.RowBlocks

variable (V : (c : Dev nD) → (b : Ref sig .tc) → Buf (Elt Ideal) ((c : Thread nD τ).loc b))

/-- The index maps of the three row-tiled windows, decided over the grid: block `(t, 0)` at point `t`. -/
private theorem idxRows1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_11.index t (0 : Fin 2) = t.val ∧ win1_11.index t (1 : Fin 2) = 0 :=
  (by decide +kernel : ∀ t : Fin grid1.N, _)

/-- The index maps of the nine parameter windows, decided over the grid: block `(0, 0)` at every point. -/
private theorem idxWhole1 : ∀ t : Fin cfg1.N,
    win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0 :=
  (by decide +kernel : ∀ t : Fin grid1.N, _)

/-- A block of rows read at an index given by its coordinates: the long array at the shifted row, same column. -/
private theorem rowsOf_at {G : S50000x128.Idx → EReal} {B : S2000x128.Idx → EReal} {o : Nat}
    (h : RowsOf 50000 2000 128 o G B) (j : S2000x128.Idx) (i : S50000x128.Idx)
    (h0 : (i 0).val = o + (j 0).val) (h1 : (i 1).val = (j 1).val) : B j = G i := by
  have hi : (i 0).val < 50000 := idx2_lt0 i
  have hlt : o + (j 0).val < 50000 := by omega
  refine ((congrArg B (eq_ix2 j)).trans (h (j 0) (j 1) hlt)).trans (congrArg G ?_)
  funext a
  apply Fin.ext
  match a with
  | ⟨0, _⟩ => exact h0.symm
  | ⟨1, _⟩ => exact h1.symm

/-- An index of the output array is in point `t`'s block iff each coordinate is in the block's range on its axis. -/
private theorem mem_blk1_11 (t : Fin cfg1.N) (i : S50000x128.Idx) :
    i ∈ ((cfg1.win 11).blk t).view.set ↔ ∀ a : Fin 2, win1_11.index t a * S2000x128.size a ≤ (i a).val
      ∧ (i a).val < win1_11.index t a * S2000x128.size a + S2000x128.size a := by
  show i ∈ ((View.whole main_v81).slice (win1_11.rect t)).set ↔ _
  rw [View.set_slice_whole, Rect.mem_set_unit]
  exact Iff.rfl

/-- Every index of the output array is in some point's block: row `r` in the block of point `r / 2000`. -/
private theorem cover1_11 (i : S50000x128.Idx) :
    ∃ t : Fin cfg1.N, (cfg1.win 11).flush t = true ∧ i ∈ ((cfg1.win 11).blk t).view.set := by
  have hi0 : (i 0).val < 50000 := idx2_lt0 i
  have hi1 : (i 1).val < 128 := idx2_lt1 i
  have hN : cfg1.N = 25 := N_1
  obtain ⟨t, ht⟩ : ∃ t : Fin cfg1.N, t.val = (i 0).val / 2000 := ⟨⟨(i 0).val / 2000, by rw [hN]; omega⟩, rfl⟩
  refine ⟨t, flush1_11 t, ?_⟩
  rw [mem_blk1_11]
  obtain ⟨-, -, -, -, e0, e1⟩ := idxRows1 t
  intro a
  match a with
  | ⟨0, _⟩ =>
    show win1_11.index t (0 : Fin 2) * 2000 ≤ (i 0).val ∧ (i 0).val < win1_11.index t (0 : Fin 2) * 2000 + 2000
    omega
  | ⟨1, _⟩ =>
    show win1_11.index t (1 : Fin 2) * 128 ≤ (i 1).val ∧ (i 1).val < win1_11.index t (1 : Fin 2) * 128 + 128
    omega

/-- The features window's block at point `t` holds rows `2000·t …` of its array. -/
theorem rows1_0 (c : Dev nD) (t : Fin cfg1.N) :
    RowsOf 50000 2000 128 (2000 * t.val) (V c main_v43 : S50000x128.Idx → EReal) (iblk1 V c 0 t) := by
  intro y k hlt
  obtain ⟨e0, e1, -, -, -, -⟩ := idxRows1 t
  show (V c main_v43 : S50000x128.Idx → EReal) (((cfg1.win 0).blk t).view.emb (ix2 y k))
    = V c main_v43 (ix2 ⟨2000 * t.val + y.val, hlt⟩ k)
  congr 1
  funext a
  apply Fin.ext
  match a with
  | ⟨0, _⟩ => show win1_0.index t (0 : Fin 2) * 2000 + 1 * y.val = 2000 * t.val + y.val; omega
  | ⟨1, _⟩ => show win1_0.index t (1 : Fin 2) * 128 + 1 * k.val = k.val; omega

/-- The neighbours' sums window's block at point `t` holds rows `2000·t …` of its array. -/
theorem rows1_1 (c : Dev nD) (t : Fin cfg1.N) :
    RowsOf 50000 2000 128 (2000 * t.val) (V c main_v53 : S50000x128.Idx → EReal) (iblk1 V c 1 t) := by
  intro y k hlt
  obtain ⟨-, -, e0, e1, -, -⟩ := idxRows1 t
  show (V c main_v53 : S50000x128.Idx → EReal) (((cfg1.win 1).blk t).view.emb (ix2 y k))
    = V c main_v53 (ix2 ⟨2000 * t.val + y.val, hlt⟩ k)
  congr 1
  funext a
  apply Fin.ext
  match a with
  | ⟨0, _⟩ => show win1_1.index t (0 : Fin 2) * 2000 + 1 * y.val = 2000 * t.val + y.val; omega
  | ⟨1, _⟩ => show win1_1.index t (1 : Fin 2) * 128 + 1 * k.val = k.val; omega

/-- Window 2's block is its whole array, at every point. -/
theorem whole1_2 (c : Dev nD) (t : Fin cfg1.N) :
    (iblk1 V c 2 t : S1x1.Idx → EReal) = (V c main_v56 : S1x1.Idx → EReal) := by
  obtain ⟨e0, e1, -, -, -, -, -, -, -, -, -, -, -, -, -, -, -, -⟩ := idxWhole1 t
  funext j
  show (V c main_v56 : S1x1.Idx → EReal) (((cfg1.win 2).blk t).view.emb j) = V c main_v56 j
  congr 1
  funext a
  apply Fin.ext
  match a with
  | ⟨0, _⟩ => show win1_2.index t (0 : Fin 2) * 1 + 1 * (j 0).val = (j 0).val; omega
  | ⟨1, _⟩ => show win1_2.index t (1 : Fin 2) * 1 + 1 * (j 1).val = (j 1).val; omega

/-- Window 3's block is its whole array, at every point. -/
theorem whole1_3 (c : Dev nD) (t : Fin cfg1.N) :
    (iblk1 V c 3 t : S128x128.Idx → EReal) = (V c main_v59 : S128x128.Idx → EReal) := by
  obtain ⟨-, -, e0, e1, -, -, -, -, -, -, -, -, -, -, -, -, -, -⟩ := idxWhole1 t
  funext j
  show (V c main_v59 : S128x128.Idx → EReal) (((cfg1.win 3).blk t).view.emb j) = V c main_v59 j
  congr 1
  funext a
  apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

/-- Window 4's block is its whole array, at every point. -/
theorem whole1_4 (c : Dev nD) (t : Fin cfg1.N) :
    (iblk1 V c 4 t : S1x128.Idx → EReal) = (V c main_v62 : S1x128.Idx → EReal) := by
  obtain ⟨-, -, -, -, e0, e1, -, -, -, -, -, -, -, -, -, -, -, -⟩ := idxWhole1 t
  funext j
  show (V c main_v62 : S1x128.Idx → EReal) (((cfg1.win 4).blk t).view.emb j) = V c main_v62 j
  congr 1
  funext a
  apply Fin.ext
  match a with
  | ⟨0, _⟩ => show win1_4.index t (0 : Fin 2) * 1 + 1 * (j 0).val = (j 0).val; omega
  | ⟨1, _⟩ => show win1_4.index t (1 : Fin 2) * 128 + 1 * (j 1).val = (j 1).val; omega

/-- Window 5's block is its whole array, at every point. -/
theorem whole1_5 (c : Dev nD) (t : Fin cfg1.N) :
    (iblk1 V c 5 t : S128x128.Idx → EReal) = (V c main_v65 : S128x128.Idx → EReal) := by
  obtain ⟨-, -, -, -, -, -, e0, e1, -, -, -, -, -, -, -, -, -, -⟩ := idxWhole1 t
  funext j
  show (V c main_v65 : S128x128.Idx → EReal) (((cfg1.win 5).blk t).view.emb j) = V c main_v65 j
  congr 1
  funext a
  apply Fin.ext
  match a with
  | ⟨0, _⟩ => show win1_5.index t (0 : Fin 2) * 128 + 1 * (j 0).val = (j 0).val; omega
  | ⟨1, _⟩ => show win1_5.index t (1 : Fin 2) * 128 + 1 * (j 1).val = (j 1).val; omega

/-- Window 6's block is its whole array, at every point. -/
theorem whole1_6 (c : Dev nD) (t : Fin cfg1.N) :
    (iblk1 V c 6 t : S1x128.Idx → EReal) = (V c main_v68 : S1x128.Idx → EReal) := by
  obtain ⟨-, -, -, -, -, -, -, -, e0, e1, -, -, -, -, -, -, -, -⟩ := idxWhole1 t
  funext j
  show (V c main_v68 : S1x128.Idx → EReal) (((cfg1.win 6).blk t).view.emb j) = V c main_v68 j
  congr 1
  funext a
  apply Fin.ext
  match a with
  | ⟨0, _⟩ => show win1_6.index t (0 : Fin 2) * 1 + 1 * (j 0).val = (j 0).val; omega
  | ⟨1, _⟩ => show win1_6.index t (1 : Fin 2) * 128 + 1 * (j 1).val = (j 1).val; omega

/-- Window 7's block is its whole array, at every point. -/
theorem whole1_7 (c : Dev nD) (t : Fin cfg1.N) :
    (iblk1 V c 7 t : S1x128.Idx → EReal) = (V c main_v71 : S1x128.Idx → EReal) := by
  obtain ⟨-, -, -, -, -, -, -, -, -, -, e0, e1, -, -, -, -, -, -⟩ := idxWhole1 t
  funext j
  show (V c main_v71 : S1x128.Idx → EReal) (((cfg1.win 7).blk t).view.emb j) = V c main_v71 j
  congr 1
  funext a
  apply Fin.ext
  match a with
  | ⟨0, _⟩ => show win1_7.index t (0 : Fin 2) * 1 + 1 * (j 0).val = (j 0).val; omega
  | ⟨1, _⟩ => show win1_7.index t (1 : Fin 2) * 128 + 1 * (j 1).val = (j 1).val; omega

/-- Window 8's block is its whole array, at every point. -/
theorem whole1_8 (c : Dev nD) (t : Fin cfg1.N) :
    (iblk1 V c 8 t : S1x128.Idx → EReal) = (V c main_v74 : S1x128.Idx → EReal) := by
  obtain ⟨-, -, -, -, -, -, -, -, -, -, -, -, e0, e1, -, -, -, -⟩ := idxWhole1 t
  funext j
  show (V c main_v74 : S1x128.Idx → EReal) (((cfg1.win 8).blk t).view.emb j) = V c main_v74 j
  congr 1
  funext a
  apply Fin.ext
  match a with
  | ⟨0, _⟩ => show win1_8.index t (0 : Fin 2) * 1 + 1 * (j 0).val = (j 0).val; omega
  | ⟨1, _⟩ => show win1_8.index t (1 : Fin 2) * 128 + 1 * (j 1).val = (j 1).val; omega

/-- Window 9's block is its whole array, at every point. -/
theorem whole1_9 (c : Dev nD) (t : Fin cfg1.N) :
    (iblk1 V c 9 t : S1x128.Idx → EReal) = (V c main_v77 : S1x128.Idx → EReal) := by
  obtain ⟨-, -, -, -, -, -, -, -, -, -, -, -, -, -, e0, e1, -, -⟩ := idxWhole1 t
  funext j
  show (V c main_v77 : S1x128.Idx → EReal) (((cfg1.win 9).blk t).view.emb j) = V c main_v77 j
  congr 1
  funext a
  apply Fin.ext
  match a with
  | ⟨0, _⟩ => show win1_9.index t (0 : Fin 2) * 1 + 1 * (j 0).val = (j 0).val; omega
  | ⟨1, _⟩ => show win1_9.index t (1 : Fin 2) * 128 + 1 * (j 1).val = (j 1).val; omega

/-- Window 10's block is its whole array, at every point. -/
theorem whole1_10 (c : Dev nD) (t : Fin cfg1.N) :
    (iblk1 V c 10 t : S1x128.Idx → EReal) = (V c main_v80 : S1x128.Idx → EReal) := by
  obtain ⟨-, -, -, -, -, -, -, -, -, -, -, -, -, -, -, -, e0, e1⟩ := idxWhole1 t
  funext j
  show (V c main_v80 : S1x128.Idx → EReal) (((cfg1.win 10).blk t).view.emb j) = V c main_v80 j
  congr 1
  funext a
  apply Fin.ext
  match a with
  | ⟨0, _⟩ => show win1_10.index t (0 : Fin 2) * 1 + 1 * (j 0).val = (j 0).val; omega
  | ⟨1, _⟩ => show win1_10.index t (1 : Fin 2) * 128 + 1 * (j 1).val = (j 1).val; omega

/-- The output array after the region: if every point's block of the body's result holds rows `2000·t …` of `G`, the
    array ends as `G` (the 25 blocks tile its 50000 rows). -/
theorem array1 (c : Dev nD) (G : S50000x128.Idx → EReal)
    (h : ∀ t : Fin cfg1.N, RowsOf 50000 2000 128 (2000 * t.val) G
      (out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t))) :
    ((dat1 V c).arrAt 11 cfg1.N : S50000x128.Idx → EReal) = G := by
  refine (dat1 V c).arrAt_eq_of_cover 11 G (fun t _ => ?_) (fun i => cover1_11 i)
  -- what point `t` writes back is block `t` of `G`
  show (cfg1.win 11).cut (grid1.coords t) ((dat1 V c).after 11 t) = _
  rw [after1_11]
  obtain ⟨-, -, -, -, e0, e1⟩ := idxRows1 t
  funext j
  show out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) j
    = G (((cfg1.win 11).blk t).view.emb j)
  refine rowsOf_at (h t) j _ ?_ ?_
  · show win1_11.index t (0 : Fin 2) * 2000 + 1 * (j 0).val = 2000 * t.val + (j 0).val
    omega
  · show win1_11.index t (1 : Fin 2) * 128 + 1 * (j 1).val = (j 1).val
    omega

end Cert.KernelIdeal.Hand

end
-- ==== Proof.RegionBlocks2.lean ====
/-
  Region 2 of the idealized kernel (the third layer's kernel), its windows' blocks and its output array.

  The grid has 25 points.  The two row-tiled input windows (the layer's input features and the neighbours' sums) and
  the output window move with the point: at point `t` their block is rows `2000·t … 2000·t + 1999` of the 50000-row
  array.  The nine parameter windows hold their whole array at every point.  The output's blocks tile the output
  array, so once every point's written-back block is known to hold the rows `2000·t …` of some array `G`, the output
  array ends as `G`.
-/
import proofs.«121161_j27779848470880_1_alg».proof.Proof.Gen.KernelIdeal.Frame
import proofs.«121161_j27779848470880_1_alg».proof.Proof.LibRowBlocks
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Lib.RowBlocks

variable (V : (c : Dev nD) → (b : Ref sig .tc) → Buf (Elt Ideal) ((c : Thread nD τ).loc b))

/-- The index maps of the three row-tiled windows, decided over the grid: block `(t, 0)` at point `t`. -/
private theorem idxRows2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_11.index t (0 : Fin 2) = t.val ∧ win2_11.index t (1 : Fin 2) = 0 :=
  (by decide +kernel : ∀ t : Fin grid2.N, _)

/-- The index maps of the nine parameter windows, decided over the grid: block `(0, 0)` at every point. -/
private theorem idxWhole2 : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0 :=
  (by decide +kernel : ∀ t : Fin grid2.N, _)

/-- A block of rows read at an index given by its coordinates: the long array at the shifted row, same column. -/
private theorem rowsOf_at {G : S50000x128.Idx → EReal} {B : S2000x128.Idx → EReal} {o : Nat}
    (h : RowsOf 50000 2000 128 o G B) (j : S2000x128.Idx) (i : S50000x128.Idx)
    (h0 : (i 0).val = o + (j 0).val) (h1 : (i 1).val = (j 1).val) : B j = G i := by
  have hi : (i 0).val < 50000 := idx2_lt0 i
  have hlt : o + (j 0).val < 50000 := by omega
  refine ((congrArg B (eq_ix2 j)).trans (h (j 0) (j 1) hlt)).trans (congrArg G ?_)
  funext a
  apply Fin.ext
  match a with
  | ⟨0, _⟩ => exact h0.symm
  | ⟨1, _⟩ => exact h1.symm

/-- An index of the output array is in point `t`'s block iff each coordinate is in the block's range on its axis. -/
private theorem mem_blk2_11 (t : Fin cfg2.N) (i : S50000x128.Idx) :
    i ∈ ((cfg2.win 11).blk t).view.set ↔ ∀ a : Fin 2, win2_11.index t a * S2000x128.size a ≤ (i a).val
      ∧ (i a).val < win2_11.index t a * S2000x128.size a + S2000x128.size a := by
  show i ∈ ((View.whole main_v113).slice (win2_11.rect t)).set ↔ _
  rw [View.set_slice_whole, Rect.mem_set_unit]
  exact Iff.rfl

/-- Every index of the output array is in some point's block: row `r` in the block of point `r / 2000`. -/
private theorem cover2_11 (i : S50000x128.Idx) :
    ∃ t : Fin cfg2.N, (cfg2.win 11).flush t = true ∧ i ∈ ((cfg2.win 11).blk t).view.set := by
  have hi0 : (i 0).val < 50000 := idx2_lt0 i
  have hi1 : (i 1).val < 128 := idx2_lt1 i
  have hN : cfg2.N = 25 := N_2
  obtain ⟨t, ht⟩ : ∃ t : Fin cfg2.N, t.val = (i 0).val / 2000 := ⟨⟨(i 0).val / 2000, by rw [hN]; omega⟩, rfl⟩
  refine ⟨t, flush2_11 t, ?_⟩
  rw [mem_blk2_11]
  obtain ⟨-, -, -, -, e0, e1⟩ := idxRows2 t
  intro a
  match a with
  | ⟨0, _⟩ =>
    show win2_11.index t (0 : Fin 2) * 2000 ≤ (i 0).val ∧ (i 0).val < win2_11.index t (0 : Fin 2) * 2000 + 2000
    omega
  | ⟨1, _⟩ =>
    show win2_11.index t (1 : Fin 2) * 128 ≤ (i 1).val ∧ (i 1).val < win2_11.index t (1 : Fin 2) * 128 + 128
    omega

/-- The features window's block at point `t` holds rows `2000·t …` of its array. -/
theorem rows2_0 (c : Dev nD) (t : Fin cfg2.N) :
    RowsOf 50000 2000 128 (2000 * t.val) (V c main_v81 : S50000x128.Idx → EReal) (iblk2 V c 0 t) := by
  intro y k hlt
  obtain ⟨e0, e1, -, -, -, -⟩ := idxRows2 t
  show (V c main_v81 : S50000x128.Idx → EReal) (((cfg2.win 0).blk t).view.emb (ix2 y k))
    = V c main_v81 (ix2 ⟨2000 * t.val + y.val, hlt⟩ k)
  congr 1
  funext a
  apply Fin.ext
  match a with
  | ⟨0, _⟩ => show win2_0.index t (0 : Fin 2) * 2000 + 1 * y.val = 2000 * t.val + y.val; omega
  | ⟨1, _⟩ => show win2_0.index t (1 : Fin 2) * 128 + 1 * k.val = k.val; omega

/-- The neighbours' sums window's block at point `t` holds rows `2000·t …` of its array. -/
theorem rows2_1 (c : Dev nD) (t : Fin cfg2.N) :
    RowsOf 50000 2000 128 (2000 * t.val) (V c main_v91 : S50000x128.Idx → EReal) (iblk2 V c 1 t) := by
  intro y k hlt
  obtain ⟨-, -, e0, e1, -, -⟩ := idxRows2 t
  show (V c main_v91 : S50000x128.Idx → EReal) (((cfg2.win 1).blk t).view.emb (ix2 y k))
    = V c main_v91 (ix2 ⟨2000 * t.val + y.val, hlt⟩ k)
  congr 1
  funext a
  apply Fin.ext
  match a with
  | ⟨0, _⟩ => show win2_1.index t (0 : Fin 2) * 2000 + 1 * y.val = 2000 * t.val + y.val; omega
  | ⟨1, _⟩ => show win2_1.index t (1 : Fin 2) * 128 + 1 * k.val = k.val; omega

/-- Window 2's block is its whole array, at every point. -/
theorem whole2_2 (c : Dev nD) (t : Fin cfg2.N) :
    (iblk2 V c 2 t : S1x1.Idx → EReal) = (V c main_v94 : S1x1.Idx → EReal) := by
  obtain ⟨e0, e1, -, -, -, -, -, -, -, -, -, -, -, -, -, -, -, -⟩ := idxWhole2 t
  funext j
  show (V c main_v94 : S1x1.Idx → EReal) (((cfg2.win 2).blk t).view.emb j) = V c main_v94 j
  congr 1
  funext a
  apply Fin.ext
  match a with
  | ⟨0, _⟩ => show win2_2.index t (0 : Fin 2) * 1 + 1 * (j 0).val = (j 0).val; omega
  | ⟨1, _⟩ => show win2_2.index t (1 : Fin 2) * 1 + 1 * (j 1).val = (j 1).val; omega

/-- Window 3's block is its whole array, at every point. -/
theorem whole2_3 (c : Dev nD) (t : Fin cfg2.N) :
    (iblk2 V c 3 t : S128x128.Idx → EReal) = (V c main_v97 : S128x128.Idx → EReal) := by
  obtain ⟨-, -, e0, e1, -, -, -, -, -, -, -, -, -, -, -, -, -, -⟩ := idxWhole2 t
  funext j
  show (V c main_v97 : S128x128.Idx → EReal) (((cfg2.win 3).blk t).view.emb j) = V c main_v97 j
  congr 1
  funext a
  apply Fin.ext
  match a with
  | ⟨0, _⟩ => show win2_3.index t (0 : Fin 2) * 128 + 1 * (j 0).val = (j 0).val; omega
  | ⟨1, _⟩ => show win2_3.index t (1 : Fin 2) * 128 + 1 * (j 1).val = (j 1).val; omega

/-- Window 4's block is its whole array, at every point. -/
theorem whole2_4 (c : Dev nD) (t : Fin cfg2.N) :
    (iblk2 V c 4 t : S1x128.Idx → EReal) = (V c main_v100 : S1x128.Idx → EReal) := by
  obtain ⟨-, -, -, -, e0, e1, -, -, -, -, -, -, -, -, -, -, -, -⟩ := idxWhole2 t
  funext j
  show (V c main_v100 : S1x128.Idx → EReal) (((cfg2.win 4).blk t).view.emb j) = V c main_v100 j
  congr 1
  funext a
  apply Fin.ext
  match a with
  | ⟨0, _⟩ => show win2_4.index t (0 : Fin 2) * 1 + 1 * (j 0).val = (j 0).val; omega
  | ⟨1, _⟩ => show win2_4.index t (1 : Fin 2) * 128 + 1 * (j 1).val = (j 1).val; omega

/-- Window 5's block is its whole array, at every point. -/
theorem whole2_5 (c : Dev nD) (t : Fin cfg2.N) :
    (iblk2 V c 5 t : S128x128.Idx → EReal) = (V c main_v103 : S128x128.Idx → EReal) := by
  obtain ⟨-, -, -, -, -, -, e0, e1, -, -, -, -, -, -, -, -, -, -⟩ := idxWhole2 t
  funext j
  show (V c main_v103 : S128x128.Idx → EReal) (((cfg2.win 5).blk t).view.emb j) = V c main_v103 j
  congr 1
  funext a
  apply Fin.ext
  match a with
  | ⟨0, _⟩ => show win2_5.index t (0 : Fin 2) * 128 + 1 * (j 0).val = (j 0).val; omega
  | ⟨1, _⟩ => show win2_5.index t (1 : Fin 2) * 128 + 1 * (j 1).val = (j 1).val; omega

/-- Window 6's block is its whole array, at every point. -/
theorem whole2_6 (c : Dev nD) (t : Fin cfg2.N) :
    (iblk2 V c 6 t : S1x128.Idx → EReal) = (V c main_v106 : S1x128.Idx → EReal) := by
  obtain ⟨-, -, -, -, -, -, -, -, e0, e1, -, -, -, -, -, -, -, -⟩ := idxWhole2 t
  funext j
  show (V c main_v106 : S1x128.Idx → EReal) (((cfg2.win 6).blk t).view.emb j) = V c main_v106 j
  congr 1
  funext a
  apply Fin.ext
  match a with
  | ⟨0, _⟩ => show win2_6.index t (0 : Fin 2) * 1 + 1 * (j 0).val = (j 0).val; omega
  | ⟨1, _⟩ => show win2_6.index t (1 : Fin 2) * 128 + 1 * (j 1).val = (j 1).val; omega

/-- Window 7's block is its whole array, at every point. -/
theorem whole2_7 (c : Dev nD) (t : Fin cfg2.N) :
    (iblk2 V c 7 t : S1x128.Idx → EReal) = (V c main_v109 : S1x128.Idx → EReal) := by
  obtain ⟨-, -, -, -, -, -, -, -, -, -, e0, e1, -, -, -, -, -, -⟩ := idxWhole2 t
  funext j
  show (V c main_v109 : S1x128.Idx → EReal) (((cfg2.win 7).blk t).view.emb j) = V c main_v109 j
  congr 1
  funext a
  apply Fin.ext
  match a with
  | ⟨0, _⟩ => show win2_7.index t (0 : Fin 2) * 1 + 1 * (j 0).val = (j 0).val; omega
  | ⟨1, _⟩ => show win2_7.index t (1 : Fin 2) * 128 + 1 * (j 1).val = (j 1).val; omega

/-- Window 8's block is its whole array, at every point. -/
theorem whole2_8 (c : Dev nD) (t : Fin cfg2.N) :
    (iblk2 V c 8 t : S1x128.Idx → EReal) = (V c main_v112 : S1x128.Idx → EReal) := by
  obtain ⟨-, -, -, -, -, -, -, -, -, -, -, -, e0, e1, -, -, -, -⟩ := idxWhole2 t
  funext j
  show (V c main_v112 : S1x128.Idx → EReal) (((cfg2.win 8).blk t).view.emb j) = V c main_v112 j
  congr 1
  funext a
  apply Fin.ext
  match a with
  | ⟨0, _⟩ => show win2_8.index t (0 : Fin 2) * 1 + 1 * (j 0).val = (j 0).val; omega
  | ⟨1, _⟩ => show win2_8.index t (1 : Fin 2) * 128 + 1 * (j 1).val = (j 1).val; omega

/-- Window 9's block is its whole array, at every point. -/
theorem whole2_9 (c : Dev nD) (t : Fin cfg2.N) :
    (iblk2 V c 9 t : S1x128.Idx → EReal) = (V c main_v4 : S1x128.Idx → EReal) := by
  obtain ⟨-, -, -, -, -, -, -, -, -, -, -, -, -, -, e0, e1, -, -⟩ := idxWhole2 t
  funext j
  show (V c main_v4 : S1x128.Idx → EReal) (((cfg2.win 9).blk t).view.emb j) = V c main_v4 j
  congr 1
  funext a
  apply Fin.ext
  match a with
  | ⟨0, _⟩ => show win2_9.index t (0 : Fin 2) * 1 + 1 * (j 0).val = (j 0).val; omega
  | ⟨1, _⟩ => show win2_9.index t (1 : Fin 2) * 128 + 1 * (j 1).val = (j 1).val; omega

/-- Window 10's block is its whole array, at every point. -/
theorem whole2_10 (c : Dev nD) (t : Fin cfg2.N) :
    (iblk2 V c 10 t : S1x128.Idx → EReal) = (V c main_v5 : S1x128.Idx → EReal) := by
  obtain ⟨-, -, -, -, -, -, -, -, -, -, -, -, -, -, -, -, e0, e1⟩ := idxWhole2 t
  funext j
  show (V c main_v5 : S1x128.Idx → EReal) (((cfg2.win 10).blk t).view.emb j) = V c main_v5 j
  congr 1
  funext a
  apply Fin.ext
  match a with
  | ⟨0, _⟩ => show win2_10.index t (0 : Fin 2) * 1 + 1 * (j 0).val = (j 0).val; omega
  | ⟨1, _⟩ => show win2_10.index t (1 : Fin 2) * 128 + 1 * (j 1).val = (j 1).val; omega

/-- The output array after the region: if every point's block of the body's result holds rows `2000·t …` of `G`, the
    array ends as `G` (the 25 blocks tile its 50000 rows). -/
theorem array2 (c : Dev nD) (G : S50000x128.Idx → EReal)
    (h : ∀ t : Fin cfg2.N, RowsOf 50000 2000 128 (2000 * t.val) G
      (out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t))) :
    ((dat2 V c).arrAt 11 cfg2.N : S50000x128.Idx → EReal) = G := by
  refine (dat2 V c).arrAt_eq_of_cover 11 G (fun t _ => ?_) (fun i => cover2_11 i)
  -- what point `t` writes back is block `t` of `G`
  show (cfg2.win 11).cut (grid2.coords t) ((dat2 V c).after 11 t) = _
  rw [after2_11]
  obtain ⟨-, -, -, -, e0, e1⟩ := idxRows2 t
  funext j
  show out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) j
    = G (((cfg2.win 11).blk t).view.emb j)
  refine rowsOf_at (h t) j _ ?_ ?_
  · show win2_11.index t (0 : Fin 2) * 2000 + 1 * (j 0).val = 2000 * t.val + (j 0).val
    omega
  · show win2_11.index t (1 : Fin 2) * 128 + 1 * (j 1).val = (j 1).val
    omega

end Cert.KernelIdeal.Hand

end
-- ==== Proof.KernelValue.lean ====
/-
  The idealized kernel's result.

  Region `k`'s output array is the layer function of what it found on entry: its written-back blocks are rows of
  `layerSkip` / `layerLast` of the entry arrays (LayerBlocks, through the blocks of RegionBlocks), and the 25 blocks tile
  the array.  On entry it found the previous region's output (the launch features, for the first), its neighbours'
  sum, and layer `k`'s parameters (Entries).  So the three outputs are the reference's three layer outputs, one after
  the other, and the last boundary's contents at the result buffer is the reference program's result term.
-/
import proofs.«121161_j27779848470880_1_alg».proof.Proof.Entries
import proofs.«121161_j27779848470880_1_alg».proof.Proof.LayerBlocks
import proofs.«121161_j27779848470880_1_alg».proof.Proof.RegionBlocks0
import proofs.«121161_j27779848470880_1_alg».proof.Proof.RegionBlocks1
import proofs.«121161_j27779848470880_1_alg».proof.Proof.RegionBlocks2

set_option maxRecDepth 16384

noncomputable section

namespace Cert.KernelIdeal.Hand

open Cert.KernelIdeal Cert.KernelIdeal.Gen
open Cert.ReferenceIdeal.Spec
open Cert.ReferenceIdeal.Value (res_main_v96 res_main_v189 val5)
open Idealize.ShloMosaic Idealize.ShloMosaic.TcCoe Idealize.ShloMosaic.ValueIdx Idealize.SL.Sem
open Cert.Lib.RowBlocks

variable {m : (ℓ : Loc nD τ sig) → Buf (Elt Ideal) ℓ} (ρ : Dev nD → PrngReg) {c : Dev nD}
variable {L : Valuation Cert.ReferenceIdeal.τ Cert.ReferenceIdeal.sig (Elt Ideal)}

set_option maxHeartbeats 1000000 in
/-- After region 0 the first layer's output. -/
theorem stage0 (h : Agree m c L) : W2 m ρ c (Proc.devRef .tc main_v43) = res_main_v96 L := by
  rw [layer0_eq]
  refine (W2_arr m ρ c 11).trans (array0 (V1 m ρ) c _ fun t => ?_)
  refine rows_out0 (eps0 L) (w1_0 L) (w2_0 L) (b1_0 L) (b2_0 L) (g_0 L) (c_0 L) (gs_0 L) (cs_0 L) _ _ _ _ _ _ _ _ _ _ _ ?_ ?_ ?_ ?_ ?_ ?_ ?_ ?_ ?_ ?_ ?_
  · have := rows0_0 (V1 m ρ) c t; rwa [E0_0 ρ h] at this
  · have := rows0_1 (V1 m ρ) c t; rwa [E0_1 ρ h] at this
  · rw [whole0_2]; exact E0_2 ρ h
  · intro i; rw [whole0_3]; exact E0_3 ρ h i
  · intro q; rw [whole0_4]; exact E0_4 ρ h q
  · intro i; rw [whole0_5]; exact E0_5 ρ h i
  · intro q; rw [whole0_6]; exact E0_6 ρ h q
  · intro q; rw [whole0_7]; exact E0_7 ρ h q
  · intro q; rw [whole0_8]; exact E0_8 ρ h q
  · intro q; rw [whole0_9]; exact E0_9 ρ h q
  · intro q; rw [whole0_10]; exact E0_10 ρ h q

set_option maxHeartbeats 1000000 in
/-- After region 1 the second layer's output. -/
theorem stage1 (h : Agree m c L) : W4 m ρ c (Proc.devRef .tc main_v81) = res_main_v189 L := by
  have hS := stage0 ρ h
  rw [layer1_eq]
  refine (W4_arr m ρ c 11).trans (array1 (V3 m ρ) c _ fun t => ?_)
  refine rows_out1 (eps1 L) (w1_1 L) (w2_1 L) (b1_1 L) (b2_1 L) (g_1 L) (c_1 L) (gs_1 L) (cs_1 L) _ _ _ _ _ _ _ _ _ _ _ ?_ ?_ ?_ ?_ ?_ ?_ ?_ ?_ ?_ ?_ ?_
  · have := rows1_0 (V3 m ρ) c t; rwa [E1_0 ρ h hS] at this
  · have := rows1_1 (V3 m ρ) c t; rwa [E1_1 ρ h hS] at this
  · rw [whole1_2]; exact E1_2 ρ h
  · intro i; rw [whole1_3]; exact E1_3 ρ h i
  · intro q; rw [whole1_4]; exact E1_4 ρ h q
  · intro i; rw [whole1_5]; exact E1_5 ρ h i
  · intro q; rw [whole1_6]; exact E1_6 ρ h q
  · intro q; rw [whole1_7]; exact E1_7 ρ h q
  · intro q; rw [whole1_8]; exact E1_8 ρ h q
  · intro q; rw [whole1_9]; exact E1_9 ρ h q
  · intro q; rw [whole1_10]; exact E1_10 ρ h q

set_option maxHeartbeats 1000000 in
/-- After region 2 the program's result, as the reference's run states it. -/
theorem result_eq (h : Agree m c L) :
    W6 m ρ c (Proc.devRef .tc main_v113) = val5 L (Proc.devRef .tc Cert.ReferenceIdeal.main_v252) := by
  have hS := stage1 ρ h
  rw [layer2_eq]
  refine (W6_arr m ρ c 11).trans (array2 (V5 m ρ) c _ fun t => ?_)
  refine rows_out2 (eps2 L) (w1_2 L) (w2_2 L) (b1_2 L) (b2_2 L) (g_2 L) (c_2 L) _ _ _ _ _ _ _ _ _ _ _ ?_ ?_ ?_ ?_ ?_ ?_ ?_ ?_ ?_
  · have := rows2_0 (V5 m ρ) c t; rwa [E2_0 ρ h hS] at this
  · have := rows2_1 (V5 m ρ) c t; rwa [E2_1 ρ h hS] at this
  · rw [whole2_2]; exact E2_2 ρ h
  · intro i; rw [whole2_3]; exact E2_3 ρ h i
  · intro q; rw [whole2_4]; exact E2_4 ρ h q
  · intro i; rw [whole2_5]; exact E2_5 ρ h i
  · intro q; rw [whole2_6]; exact E2_6 ρ h q
  · intro q; rw [whole2_7]; exact E2_7 ρ h q
  · intro q; rw [whole2_8]; exact E2_8 ρ h q

end Cert.KernelIdeal.Hand

end
-- ==== Proof.lean ====
/-
  A three-layer graph network, one fused kernel per layer, against its plain reference: the two compute the same
  function on the extended reals.

  Each layer maps the node features `h` (50000 nodes, 128 features) to

      max (LN'(LN(max (((1 + ε) · h + a) · W₁ + b₁) 0 · W₂ + b₂))) 0 + h        (the last layer: LN(…) + h)

  where `a` is the sum of each node's neighbours' features along the edge list and LN, LN' are normalisations of each
  row (subtract the mean, scale by `(variance + 10⁻⁵)^(−1/2)`, then a gain and a bias).  The kernel program computes
  `a` on the host exactly as the reference does and runs the rest of a layer in one kernel over 25 blocks of 2000
  nodes; the reference runs it on whole arrays.  Every step after `a` reads one node's row at a time, so block `t` of a
  kernel's output is rows `2000·t … 2000·t + 1999` of the reference's layer output, the blocks tile the array, and the
  three layer outputs agree one after the other (KernelValue).  No law beyond this re-tiling is used: a product into a
  zero accumulator is the host's product, a lane sum the host's sum, and a change of float format is the identity at
  the ideal values; in particular nothing needs the inputs to be finite.

  The three programs terminate without a fault with their arguments unchanged (the two kernel programs by their
  generated frames, the reference by its generated run), and the idealization rewrote nothing, so `preserves` is
  trivial.
-/
import proofs.«121161_j27779848470880_1_alg».proof.Defs
import proofs.«121161_j27779848470880_1_alg».proof.Proof.Gen.Kernel
import proofs.«121161_j27779848470880_1_alg».proof.Proof.Gen.Kernel.Skeleton
import proofs.«121161_j27779848470880_1_alg».proof.Proof.Gen.Kernel.Launch
import proofs.«121161_j27779848470880_1_alg».proof.Proof.Gen.Kernel.Points
import proofs.«121161_j27779848470880_1_alg».proof.Proof.Gen.Kernel.Frame
import proofs.«121161_j27779848470880_1_alg».proof.Proof.Gen.KernelIdeal
import proofs.«121161_j27779848470880_1_alg».proof.Proof.Gen.KernelIdeal.Skeleton
import proofs.«121161_j27779848470880_1_alg».proof.Proof.Gen.KernelIdeal.Launch
import proofs.«121161_j27779848470880_1_alg».proof.Proof.Gen.KernelIdeal.Points
import proofs.«121161_j27779848470880_1_alg».proof.Proof.Gen.KernelIdeal.Frame
import proofs.«121161_j27779848470880_1_alg».proof.Proof.Gen.ReferenceIdeal
import proofs.«121161_j27779848470880_1_alg».proof.Proof.Gen.ReferenceIdeal.Run
import proofs.«121161_j27779848470880_1_alg».proof.Proof.Gen.Pre_finite_inputs
import proofs.«121161_j27779848470880_1_alg».proof.Proof.KernelRun
import proofs.«121161_j27779848470880_1_alg».proof.Proof.KernelValue
import Idealize.ShloMosaic.Adequacy
import Idealize.ShloMosaic.Init

noncomputable section

namespace Cert.Proof

open Idealize.ShloMosaic Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same result: the kernel program's result
    buffer holds the last boundary's contents, which is the reference's result term at the agreeing arguments. -/
theorem algebraic : Cert.algebraic_KernelIdeal_ReferenceIdeal := by
  intro m ρ m' ρ' _ hagree
  refine ⟨fun c => Cert.KernelIdeal.Gen.W6 m ρ c (Proc.devRef .tc Cert.KernelIdeal.main_v113),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  have hA : Cert.KernelIdeal.Hand.Agree m c (launchContents m' c) :=
    ⟨(hagree c).1,
     (hagree c).2.1,
     (hagree c).2.2.1,
     (hagree c).2.2.2.1,
     (hagree c).2.2.2.2.1,
     (hagree c).2.2.2.2.2.1,
     (hagree c).2.2.2.2.2.2.1,
     (hagree c).2.2.2.2.2.2.2.1,
     (hagree c).2.2.2.2.2.2.2.2.1,
     (hagree c).2.2.2.2.2.2.2.2.2.1,
     (hagree c).2.2.2.2.2.2.2.2.2.2⟩
  exact (Cert.ReferenceIdeal.Value.val5_main_v252 (launchContents m' c)).symm.trans (Cert.KernelIdeal.Hand.result_eq ρ hA).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
